-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64x64 .f32) (main_arg14 : FVec F S64 .f32) (main_arg15 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S500000x64 .f32) (main_arg1 : FVec F S100000x64 .f32) (main_arg2 : IVec S1250000 32) (main_arg3 : IVec S1250000 32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S500000x64 : Shape := ⟨2, ![500000, 64]⟩
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S500000 : Shape := ⟨1, ![500000]⟩
abbrev S500000x1 : Shape := ⟨2, ![500000, 1]⟩
abbrev S1x64 : Shape := ⟨2, ![1, 64]⟩
abbrev S5000x64 : Shape := ⟨2, ![5000, 64]⟩

abbrev nBuf : Space → Nat
  | .hbm => 124
  | .vmem => 36
  | .smem => 0
  | _ => 0

abbrev bufTy : (tb : Table) → Fin (tcTables nBuf tb) → BufTy
  | .hbm, ⟨0, _⟩ => ⟨S500000x64, .f32⟩
  | .hbm, ⟨1, _⟩ => ⟨S100000x64, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S_, .f32⟩
  | .hbm, ⟨30, _⟩ => ⟨S1250000, .f32⟩
  | .hbm, ⟨31, _⟩ => ⟨S_, .f32⟩
  | .hbm, ⟨32, _⟩ => ⟨S100000, .f32⟩
  | .hbm, ⟨33, _⟩ => ⟨S1250000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1250000, .i32⟩
  | .hbm, ⟨43, _⟩ => ⟨S1250000, .i1⟩
  | .hbm, ⟨44, _⟩ => ⟨S_, .i32⟩
  | .hbm, ⟨45, _⟩ => ⟨S1250000, .i32⟩
  | .hbm, ⟨46, _⟩ => ⟨S1250000, .i32⟩
  | .hbm, ⟨47, _⟩ => ⟨S1250000, .i32⟩
  | .hbm, ⟨48, _⟩ => ⟨S1250000x1, .i32⟩
  | .hbm, ⟨49, _⟩ => ⟨S1250000x64, .f32⟩
  | .hbm, ⟨50, _⟩ => ⟨S_, .f32⟩
  | .hbm, ⟨51, _⟩ => ⟨S500000x64, .f32⟩
  | .hbm, ⟨52, _⟩ => ⟨S1250000x1, .i32⟩
  | .hbm, ⟨53, _⟩ => ⟨S500000x64, .f32⟩
  | .hbm, ⟨54, _⟩ => ⟨S_, .f32⟩
  | .hbm, ⟨55, _⟩ => ⟨S1250000, .f32⟩
  | .hbm, ⟨56, _⟩ => ⟨S_, .f32⟩
  | .hbm, ⟨57, _⟩ => ⟨S500000, .f32⟩
  | .hbm, ⟨58, _⟩ => ⟨S1250000x1, .i32⟩
  | .hbm, ⟨59, _⟩ => ⟨S500000, .f32⟩
  | .hbm, ⟨60, _⟩ => ⟨S_, .f32⟩
  | .hbm, ⟨61, _⟩ => ⟨S500000, .f32⟩
  | .hbm, ⟨62, _⟩ => ⟨S500000, .f32⟩
  | .hbm, ⟨63, _⟩ => ⟨S500000x1, .f32⟩
  | .hbm, ⟨64, _⟩ => ⟨S500000x64, .f32⟩
  | .hbm, ⟨65, _⟩ => ⟨S500000x64, .f32⟩
  | .hbm, ⟨66, _⟩ => ⟨S1x64, .f32⟩
  | .hbm, ⟨67, _⟩ => ⟨S100000x64, .f32⟩
  | .hbm, ⟨68, _⟩ => ⟨S1x64, .f32⟩
  | .hbm, ⟨69, _⟩ => ⟨S500000x64, .f32⟩
  | .hbm, ⟨70, _⟩ => ⟨S_, .i32⟩
  | .hbm, ⟨71, _⟩ => ⟨S1250000, .i32⟩
  | .hbm, ⟨72, _⟩ => ⟨S1250000, .i1⟩
  | .hbm, ⟨73, _⟩ => ⟨S_, .i32⟩
  | .hbm, ⟨74, _⟩ => ⟨S1250000, .i32⟩
  | .hbm, ⟨75, _⟩ => ⟨S1250000, .i32⟩
  | .hbm, ⟨76, _⟩ => ⟨S1250000, .i32⟩
  | .hbm, ⟨77, _⟩ => ⟨S1250000x1, .i32⟩
  | .hbm, ⟨78, _⟩ => ⟨S1250000x64, .f32⟩
  | .hbm, ⟨79, _⟩ => ⟨S_, .f32⟩
  | .hbm, ⟨80, _⟩ => ⟨S100000x64, .f32⟩
  | .hbm, ⟨81, _⟩ => ⟨S1250000x1, .i32⟩
  | .hbm, ⟨82, _⟩ => ⟨S100000x64, .f32⟩
  | .hbm, ⟨83, _⟩ => ⟨S_, .f32⟩
  | .hbm, ⟨84, _⟩ => ⟨S1250000, .f32⟩
  | .hbm, ⟨85, _⟩ => ⟨S_, .f32⟩
  | .hbm, ⟨86, _⟩ => ⟨S100000, .f32⟩
  | .hbm, ⟨87, _⟩ => ⟨S1250000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1250000, .i32⟩
  | .hbm, ⟨97, _⟩ => ⟨S1250000, .i1⟩
  | .hbm, ⟨98, _⟩ => ⟨S_, .i32⟩
  | .hbm, ⟨99, _⟩ => ⟨S1250000, .i32⟩
  | .hbm, ⟨100, _⟩ => ⟨S1250000, .i32⟩
  | .hbm, ⟨101, _⟩ => ⟨S1250000, .i32⟩
  | .hbm, ⟨102, _⟩ => ⟨S1250000x1, .i32⟩
  | .hbm, ⟨103, _⟩ => ⟨S1250000x64, .f32⟩
  | .hbm, ⟨104, _⟩ => ⟨S_, .f32⟩
  | .hbm, ⟨105, _⟩ => ⟨S500000x64, .f32⟩
  | .hbm, ⟨106, _⟩ => ⟨S1250000x1, .i32⟩
  | .hbm, ⟨107, _⟩ => ⟨S500000x64, .f32⟩
  | .hbm, ⟨108, _⟩ => ⟨S_, .f32⟩
  | .hbm, ⟨109, _⟩ => ⟨S1250000, .f32⟩
  | .hbm, ⟨110, _⟩ => ⟨S_, .f32⟩
  | .hbm, ⟨111, _⟩ => ⟨S500000, .f32⟩
  | .hbm, ⟨112, _⟩ => ⟨S1250000x1, .i32⟩
  | .hbm, ⟨113, _⟩ => ⟨S500000, .f32⟩
  | .hbm, ⟨114, _⟩ => ⟨S_, .f32⟩
  | .hbm, ⟨115, _⟩ => ⟨S500000, .f32⟩
  | .hbm, ⟨116, _⟩ => ⟨S500000, .f32⟩
  | .hbm, ⟨117, _⟩ => ⟨S500000x1, .f32⟩
  | .hbm, ⟨118, _⟩ => ⟨S500000x64, .f32⟩
  | .hbm, ⟨119, _⟩ => ⟨S500000x64, .f32⟩
  | .hbm, ⟨120, _⟩ => ⟨S1x64, .f32⟩
  | .hbm, ⟨121, _⟩ => ⟨S100000x64, .f32⟩
  | .hbm, ⟨122, _⟩ => ⟨S1x64, .f32⟩
  | .hbm, ⟨123, _⟩ => ⟨S500000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_v62 : Ref sig .tc := ⟨.hbm, 97, rfl⟩
abbrev main_c_17 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_19 : Ref sig .tc := ⟨.hbm, 108, rfl⟩
abbrev main_v71 : Ref sig .tc := ⟨.hbm, 109, rfl⟩
abbrev main_cst_20 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S500000x64 : S_.BroadcastsInDim S500000x64 (![] : Fin 0 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S500000x64_S1250000x1_S1250000x64_1_0_n_n_0_1_164_wf : GatherDims.WF S500000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S500000x64_S1250000x1_S1250000x64_1_0_0_1_wf : ScatterDims.WF S500000x64 S1250000x1 S1250000x64 [1] [0] [0] 1
  scatter_S500000_S1250000x1_S1250000_n_0_0_1_wf : ScatterDims.WF S500000 S1250000x1 S1250000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S500000x64.size a
  hwx1_0 : ∀ i : grid1.Coords, EltTy.bits .f32 = 32 ∨ (Rect.block (s := S500000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S500000x64.size a
  hwx1_1 : ∀ i : grid1.Coords, EltTy.bits .f32 = 32 ∨ (Rect.block (s := S500000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S500000x64.size a
  hwx1_5 : ∀ i : grid1.Coords, EltTy.bits .f32 = 32 ∨ (Rect.block (s := S500000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S500000x64.size a
  hwx3_0 : ∀ i : grid3.Coords, EltTy.bits .f32 = 32 ∨ (Rect.block (s := S500000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S500000x64.size a
  hwx3_1 : ∀ i : grid3.Coords, EltTy.bits .f32 = 32 ∨ (Rect.block (s := S500000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S500000x64.size a
  hwx3_5 : ∀ i : grid3.Coords, EltTy.bits .f32 = 32 ∨ (Rect.block (s := S500000x64) S5000x64.size (cc3_transform_5 i) (hinb3_5 i)).WholeWords (EltTy.packing .f32)

variable [Facts₀]

def gather_S500000x64_S1250000x1_S1250000x64_1_0_n_n_0_1_164 : GatherDims S500000x64 S1250000x1 S1250000x64 where
  offsetDims := [1]
  collapsedSliceDims := [0]
  operandBatchingDims := []
  startIndicesBatchingDims := []
  startIndexMap := [0]
  indexVectorDim := 1
  sliceSizes := ![1, 64]
  wf := gather_S500000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S500000x64_S1250000x1_S1250000x64_1_0_0_1 : ScatterDims S500000x64 S1250000x1 S1250000x64 where
  updateWindowDims := [1]
  insertedWindowDims := [0]
  scatterDimsToOperandDims := [0]
  indexVectorDim := 1
  wf := scatter_S500000x64_S1250000x1_S1250000x64_1_0_0_1_wf
def scatter_S500000_S1250000x1_S1250000_n_0_0_1 : ScatterDims S500000 S1250000x1 S1250000 where
  updateWindowDims := []
  insertedWindowDims := [0]
  scatterDimsToOperandDims := [0]
  indexVectorDim := 1
  wf := scatter_S500000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S500000x64 : Shape := ⟨2, ![500000, 64]⟩
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S500000 : Shape := ⟨1, ![500000]⟩
abbrev S500000x1 : Shape := ⟨2, ![500000, 1]⟩

abbrev nBuf : Space → Nat
  | .hbm => 156
  | .vmem => 0
  | .smem => 0
  | _ => 0

abbrev hbmTy0_0 (i : Nat) : BufTy := match i % 128 with
  | 0 => ⟨S500000x64, .f32⟩
  | 1 => ⟨S100000x64, .f32⟩
  | 2 => ⟨S1250000, .i32⟩
  | 3 => ⟨S1250000, .i32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S_, .i32⟩
  | 17 => ⟨S1250000, .i32⟩
  | 18 => ⟨S1250000, .i1⟩
  | 19 => ⟨S_, .i32⟩
  | 20 => ⟨S1250000, .i32⟩
  | 21 => ⟨S1250000, .i32⟩
  | 22 => ⟨S1250000, .i32⟩
  | 23 => ⟨S1250000x1, .i32⟩
  | 24 => ⟨S1250000x64, .f32⟩
  | 25 => ⟨S_, .f32⟩
  | 26 => ⟨S100000x64, .f32⟩
  | 27 => ⟨S1250000x1, .i32⟩
  | 28 => ⟨S100000x64, .f32⟩
  | 29 => ⟨S_, .f32⟩
  | 30 => ⟨S1250000, .f32⟩
  | 31 => ⟨S_, .f32⟩
  | 32 => ⟨S100000, .f32⟩
  | 33 => ⟨S1250000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .i32⟩
  | 48 => ⟨S1250000, .i32⟩
  | 49 => ⟨S1250000, .i1⟩
  | 50 => ⟨S_, .i32⟩
  | 51 => ⟨S1250000, .i32⟩
  | 52 => ⟨S1250000, .i32⟩
  | 53 => ⟨S1250000, .i32⟩
  | 54 => ⟨S1250000x1, .i32⟩
  | 55 => ⟨S1250000x64, .f32⟩
  | 56 => ⟨S_, .f32⟩
  | 57 => ⟨S500000x64, .f32⟩
  | 58 => ⟨S1250000x1, .i32⟩
  | 59 => ⟨S500000x64, .f32⟩
  | 60 => ⟨S_, .f32⟩
  | 61 => ⟨S1250000, .f32⟩
  | 62 => ⟨S_, .f32⟩
  | 63 => ⟨S500000, .f32⟩
  | 64 => ⟨S1250000x1, .i32⟩
  | 65 => ⟨S500000, .f32⟩
  | 66 => ⟨S_, .f32⟩
  | 67 => ⟨S500000, .f32⟩
  | 68 => ⟨S500000, .f32⟩
  | 69 => ⟨S500000x1, .f32⟩
  | 70 => ⟨S500000x64, .f32⟩
  | 71 => ⟨S500000x64, .f32⟩
  | 72 => ⟨S500000x64, .f32⟩
  | 73 => ⟨S1x64, .f32⟩
  | 74 => ⟨S500000x64, .f32⟩
  | 75 => ⟨S500000x64, .f32⟩
  | 76 => ⟨S500000x64, .f32⟩
  | 77 => ⟨S500000x64, .f32⟩
  | 78 => ⟨S_, .f32⟩
  | 79 => ⟨S_, .f32⟩
  | 80 => ⟨S500000x64, .f32⟩
  | 81 => ⟨S500000x64, .i1⟩
  | 82 => ⟨S_, .f32⟩
  | 83 => ⟨S500000x64, .f32⟩
  | 84 => ⟨S500000x64, .f32⟩
  | 85 => ⟨S500000x64, .f32⟩
  | 86 => ⟨S_, .f32⟩
  | 87 => ⟨S_, .f32⟩
  | 88 => ⟨S100000x64, .f32⟩
  | 89 => ⟨S100000x64, .i1⟩
  | 90 => ⟨S_, .f32⟩
  | 91 => ⟨S100000x64, .f32⟩
  | 92 => ⟨S100000x64, .f32⟩
  | 93 => ⟨S100000x64, .f32⟩
  | 94 => ⟨S_, .i32⟩
  | 95 => ⟨S1250000, .i32⟩
  | 96 => ⟨S1250000, .i1⟩
  | 97 => ⟨S_, .i32⟩
  | 98 => ⟨S1250000, .i32⟩
  | 99 => ⟨S1250000, .i32⟩
  | 100 => ⟨S1250000, .i32⟩
  | 101 => ⟨S1250000x1, .i32⟩
  | 102 => ⟨S1250000x64, .f32⟩
  | 103 => ⟨S_, .f32⟩
  | 104 => ⟨S100000x64, .f32⟩
  | 105 => ⟨S1250000x1, .i32⟩
  | 106 => ⟨S100000x64, .f32⟩
  | 107 => ⟨S_, .f32⟩
  | 108 => ⟨S1250000, .f32⟩
  | 109 => ⟨S_, .f32⟩
  | 110 => ⟨S100000, .f32⟩
  | 111 => ⟨S1250000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S100000x64, .f32⟩
  | 125 => ⟨S_, .i32⟩
  | 126 => ⟨S1250000, .i32⟩
  | 127 => ⟨S1250000, .i1⟩
  | _ => ⟨S500000x64, .f32⟩

abbrev hbmTy0_1 (i : Nat) : BufTy := match i % 128 with
  | 0 => ⟨S_, .i32⟩
  | 1 => ⟨S1250000, .i32⟩
  | 2 => ⟨S1250000, .i32⟩
  | 3 => ⟨S1250000, .i32⟩
  | 4 => ⟨S1250000x1, .i32⟩
  | 5 => ⟨S1250000x64, .f32⟩
  | 6 => ⟨S_, .f32⟩
  | 7 => ⟨S500000x64, .f32⟩
  | 8 => ⟨S1250000x1, .i32⟩
  | 9 => ⟨S500000x64, .f32⟩
  | 10 => ⟨S_, .f32⟩
  | 11 => ⟨S1250000, .f32⟩
  | 12 => ⟨S_, .f32⟩
  | 13 => ⟨S500000, .f32⟩
  | 14 => ⟨S1250000x1, .i32⟩
  | 15 => ⟨S500000, .f32⟩
  | 16 => ⟨S_, .f32⟩
  | 17 => ⟨S500000, .f32⟩
  | 18 => ⟨S500000, .f32⟩
  | 19 => ⟨S500000x1, .f32⟩
  | 20 => ⟨S500000x64, .f32⟩
  | 21 => ⟨S500000x64, .f32⟩
  | 22 => ⟨S500000x64, .f32⟩
  | 23 => ⟨S1x64, .f32⟩
  | 24 => ⟨S500000x64, .f32⟩
  | 25 => ⟨S500000x64, .f32⟩
  | 26 => ⟨S500000x64, .f32⟩
  | 27 => ⟨S500000x64, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v50 : Ref sig .tc := ⟨.hbm, 85, rfl⟩
abbrev main_cst_11 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v51 : Ref sig .tc := ⟨.hbm, 93, rfl⟩
abbrev main_c_12 : Ref sig .tc := ⟨.hbm, 94, rfl⟩
abbrev main_v52 : Ref sig .tc := ⟨.hbm, 95, rfl⟩
abbrev main_v53 : Ref sig .tc := ⟨.hbm, 96, rfl⟩
abbrev main_c_13 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_14 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_15 : Ref sig .tc := ⟨.hbm, 107, rfl⟩
abbrev main_v62 : Ref sig .tc := ⟨.hbm, 108, rfl⟩
abbrev main_cst_16 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_17 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_18 : Ref sig .tc := ⟨.hbm, 125, rfl⟩
abbrev main_v77 : Ref sig .tc := ⟨.hbm, 126, rfl⟩
abbrev main_v78 : Ref sig .tc := ⟨.hbm, 127, rfl⟩
abbrev main_c_19 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_20 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_21 : Ref sig .tc := ⟨.hbm, 138, rfl⟩
abbrev main_v87 : Ref sig .tc := ⟨.hbm, 139, rfl⟩
abbrev main_cst_22 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_23 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000x64 : S_.BroadcastsInDim S500000x64 (![] : Fin 0 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S1x64_S500000x64_0_1 : S1x64.BroadcastsInDim S500000x64 (![0, 1] : Fin 2 → Fin S500000x64.rank)
  gather_S500000x64_S1250000x1_S1250000x64_1_0_n_n_0_1_164_wf : GatherDims.WF S500000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S500000x64_S1250000x1_S1250000x64_1_0_0_1_wf : ScatterDims.WF S500000x64 S1250000x1 S1250000x64 [1] [0] [0] 1
  scatter_S500000_S1250000x1_S1250000_n_0_0_1_wf : ScatterDims.WF S500000 S1250000x1 S1250000 [] [0] [0] 1
  dot_S500000x64_S64x64_S500000x64_1_0_0_1_n_n_wf : DotDims.WF S500000x64 S64x64 S500000x64 [1] [0] [0] [1] [] []

variable [Facts₀]

def gather_S500000x64_S1250000x1_S1250000x64_1_0_n_n_0_1_164 : GatherDims S500000x64 S1250000x1 S1250000x64 where
  offsetDims := [1]
  collapsedSliceDims := [0]
  operandBatchingDims := []
  startIndicesBatchingDims := []
  startIndexMap := [0]
  indexVectorDim := 1
  sliceSizes := ![1, 64]
  wf := gather_S500000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S500000x64_S1250000x1_S1250000x64_1_0_0_1 : ScatterDims S500000x64 S1250000x1 S1250000x64 where
  updateWindowDims := [1]
  insertedWindowDims := [0]
  scatterDimsToOperandDims := [0]
  indexVectorDim := 1
  wf := scatter_S500000x64_S1250000x1_S1250000x64_1_0_0_1_wf
def scatter_S500000_S1250000x1_S1250000_n_0_0_1 : ScatterDims S500000 S1250000x1 S1250000 where
  updateWindowDims := []
  insertedWindowDims := [0]
  scatterDimsToOperandDims := [0]
  indexVectorDim := 1
  wf := scatter_S500000_S1250000x1_S1250000_n_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.KernelRun.lean ====
/-
  The kernel program's run with its two result buffers named: @main is four kernel regions among stretches of host
  operations, and every weakly fair execution terminates with every unscoped buffer at the contents the last segment
  boundary holds (the fold `W8` of the generated frame: each host stretch applied, each region's arrays at what its
  write-backs leave).  Read here at the two result buffers and at the sixteen arguments.
-/
import proofs.«127901_j62294205662068_1_alg».proof.Proof.Gen.KernelIdeal.Frame

set_option maxRecDepth 16384

noncomputable section

namespace Cert.KernelIdeal.RegionRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_W8 : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v83 (by decide)),
       h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RegionRun

end
-- ==== Proof.KernelKeep.lean ====
/-
  Buffers that a stretch of the kernel program leaves alone.  Between two segment boundaries of @main a buffer keeps
  its contents when no host operation of the stretch writes it, or when it is not one of the region's arrays.  Stated
  here, boundary by boundary, for the buffers the regions and the later host operations read: each argument up to
  the last boundary at which it is read, and each intermediate result from where it is written to where it is read.
-/
import proofs.«127901_j62294205662068_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## One segment at a time -/

theorem keep1_main_arg0 (c : Dev nD) : W1 m ρ c (Proc.devRef .tc main_arg0) = W0 m ρ c (Proc.devRef .tc main_arg0) := by
  show StableHlo.after hostOps0 (W0 m ρ c) (Proc.devRef .tc main_arg0) = _
  after_results

theorem keep2_main_arg0 (c : Dev nD) : W2 m ρ c (Proc.devRef .tc main_arg0) = W1 m ρ c (Proc.devRef .tc main_arg0) :=
  W2_of_ne m ρ c main_arg0 (by decide)

theorem keep3_main_arg0 (c : Dev nD) : W3 m ρ c (Proc.devRef .tc main_arg0) = W2 m ρ c (Proc.devRef .tc main_arg0) := by
  show StableHlo.after hostOps1 (W2 m ρ c) (Proc.devRef .tc main_arg0) = _
  after_results

theorem keep1_main_arg1 (c : Dev nD) : W1 m ρ c (Proc.devRef .tc main_arg1) = W0 m ρ c (Proc.devRef .tc main_arg1) := by
  show StableHlo.after hostOps0 (W0 m ρ c) (Proc.devRef .tc main_arg1) = _
  after_results

theorem keep1_main_arg2 (c : Dev nD) : W1 m ρ c (Proc.devRef .tc main_arg2) = W0 m ρ c (Proc.devRef .tc main_arg2) := by
  show StableHlo.after hostOps0 (W0 m ρ c) (Proc.devRef .tc main_arg2) = _
  after_results

theorem keep2_main_arg2 (c : Dev nD) : W2 m ρ c (Proc.devRef .tc main_arg2) = W1 m ρ c (Proc.devRef .tc main_arg2) :=
  W2_of_ne m ρ c main_arg2 (by decide)

theorem keep3_main_arg2 (c : Dev nD) : W3 m ρ c (Proc.devRef .tc main_arg2) = W2 m ρ c (Proc.devRef .tc main_arg2) := by
  show StableHlo.after hostOps1 (W2 m ρ c) (Proc.devRef .tc main_arg2) = _
  after_results

theorem keep4_main_arg2 (c : Dev nD) : W4 m ρ c (Proc.devRef .tc main_arg2) = W3 m ρ c (Proc.devRef .tc main_arg2) :=
  W4_of_ne m ρ c main_arg2 (by decide)

theorem keep1_main_arg3 (c : Dev nD) : W1 m ρ c (Proc.devRef .tc main_arg3) = W0 m ρ c (Proc.devRef .tc main_arg3) := by
  show StableHlo.after hostOps0 (W0 m ρ c) (Proc.devRef .tc main_arg3) = _
  after_results

theorem keep2_main_arg3 (c : Dev nD) : W2 m ρ c (Proc.devRef .tc main_arg3) = W1 m ρ c (Proc.devRef .tc main_arg3) :=
  W2_of_ne m ρ c main_arg3 (by decide)

theorem keep3_main_arg3 (c : Dev nD) : W3 m ρ c (Proc.devRef .tc main_arg3) = W2 m ρ c (Proc.devRef .tc main_arg3) := by
  show StableHlo.after hostOps1 (W2 m ρ c) (Proc.devRef .tc main_arg3) = _
  after_results

theorem keep4_main_arg3 (c : Dev nD) : W4 m ρ c (Proc.devRef .tc main_arg3) = W3 m ρ c (Proc.devRef .tc main_arg3) :=
  W4_of_ne m ρ c main_arg3 (by decide)

theorem keep1_main_arg4 (c : Dev nD) : W1 m ρ c (Proc.devRef .tc main_arg4) = W0 m ρ c (Proc.devRef .tc main_arg4) := by
  show StableHlo.after hostOps0 (W0 m ρ c) (Proc.devRef .tc main_arg4) = _
  after_results

theorem keep1_main_arg6 (c : Dev nD) : W1 m ρ c (Proc.devRef .tc main_arg6) = W0 m ρ c (Proc.devRef .tc main_arg6) := by
  show StableHlo.after hostOps0 (W0 m ρ c) (Proc.devRef .tc main_arg6) = _
  after_results

theorem keep1_main_arg7 (c : Dev nD) : W1 m ρ c (Proc.devRef .tc main_arg7) = W0 m ρ c (Proc.devRef .tc main_arg7) := by
  show StableHlo.after hostOps0 (W0 m ρ c) (Proc.devRef .tc main_arg7) = _
  after_results

theorem keep2_main_arg7 (c : Dev nD) : W2 m ρ c (Proc.devRef .tc main_arg7) = W1 m ρ c (Proc.devRef .tc main_arg7) :=
  W2_of_ne m ρ c main_arg7 (by decide)

theorem keep3_main_arg7 (c : Dev nD) : W3 m ρ c (Proc.devRef .tc main_arg7) = W2 m ρ c (Proc.devRef .tc main_arg7) := by
  show StableHlo.after hostOps1 (W2 m ρ c) (Proc.devRef .tc main_arg7) = _
  after_results

theorem keep1_main_arg8 (c : Dev nD) : W1 m ρ c (Proc.devRef .tc main_arg8) = W0 m ρ c (Proc.devRef .tc main_arg8) := by
  show StableHlo.after hostOps0 (W0 m ρ c) (Proc.devRef .tc main_arg8) = _
  after_results

theorem keep2_main_arg8 (c : Dev nD) : W2 m ρ c (Proc.devRef .tc main_arg8) = W1 m ρ c (Proc.devRef .tc main_arg8) :=
  W2_of_ne m ρ c main_arg8 (by decide)

theorem keep1_main_arg9 (c : Dev nD) : W1 m ρ c (Proc.devRef .tc main_arg9) = W0 m ρ c (Proc.devRef .tc main_arg9) := by
  show StableHlo.after hostOps0 (W0 m ρ c) (Proc.devRef .tc main_arg9) = _
  after_results

theorem keep2_main_arg9 (c : Dev nD) : W2 m ρ c (Proc.devRef .tc main_arg9) = W1 m ρ c (Proc.devRef .tc main_arg9) :=
  W2_of_ne m ρ c main_arg9 (by decide)

theorem keep3_main_arg9 (c : Dev nD) : W3 m ρ c (Proc.devRef .tc main_arg9) = W2 m ρ c (Proc.devRef .tc main_arg9) := by
  show StableHlo.after hostOps1 (W2 m ρ c) (Proc.devRef .tc main_arg9) = _
  after_results

theorem keep1_main_arg10 (c : Dev nD) : W1 m ρ c (Proc.devRef .tc main_arg10) = W0 m ρ c (Proc.devRef .tc main_arg10) := by
  show StableHlo.after hostOps0 (W0 m ρ c) (Proc.devRef .tc main_arg10) = _
  after_results

theorem keep2_main_arg10 (c : Dev nD) : W2 m ρ c (Proc.devRef .tc main_arg10) = W1 m ρ c (Proc.devRef .tc main_arg10) :=
  W2_of_ne m ρ c main_arg10 (by decide)

theorem keep3_main_arg10 (c : Dev nD) : W3 m ρ c (Proc.devRef .tc main_arg10) = W2 m ρ c (Proc.devRef .tc main_arg10) := by
  show StableHlo.after hostOps1 (W2 m ρ c) (Proc.devRef .tc main_arg10) = _
  after_results

theorem keep4_main_arg10 (c : Dev nD) : W4 m ρ c (Proc.devRef .tc main_arg10) = W3 m ρ c (Proc.devRef .tc main_arg10) :=
  W4_of_ne m ρ c main_arg10 (by decide)

theorem keep5_main_arg10 (c : Dev nD) : W5 m ρ c (Proc.devRef .tc main_arg10) = W4 m ρ c (Proc.devRef .tc main_arg10) := by
  show StableHlo.after hostOps2 (W4 m ρ c) (Proc.devRef .tc main_arg10) = _
  after_results

theorem keep1_main_arg11 (c : Dev nD) : W1 m ρ c (Proc.devRef .tc main_arg11) = W0 m ρ c (Proc.devRef .tc main_arg11) := by
  show StableHlo.after hostOps0 (W0 m ρ c) (Proc.devRef .tc main_arg11) = _
  after_results

theorem keep2_main_arg11 (c : Dev nD) : W2 m ρ c (Proc.devRef .tc main_arg11) = W1 m ρ c (Proc.devRef .tc main_arg11) :=
  W2_of_ne m ρ c main_arg11 (by decide)

theorem keep3_main_arg11 (c : Dev nD) : W3 m ρ c (Proc.devRef .tc main_arg11) = W2 m ρ c (Proc.devRef .tc main_arg11) := by
  show StableHlo.after hostOps1 (W2 m ρ c) (Proc.devRef .tc main_arg11) = _
  after_results

theorem keep4_main_arg11 (c : Dev nD) : W4 m ρ c (Proc.devRef .tc main_arg11) = W3 m ρ c (Proc.devRef .tc main_arg11) :=
  W4_of_ne m ρ c main_arg11 (by decide)

theorem keep1_main_arg12 (c : Dev nD) : W1 m ρ c (Proc.devRef .tc main_arg12) = W0 m ρ c (Proc.devRef .tc main_arg12) := by
  show StableHlo.after hostOps0 (W0 m ρ c) (Proc.devRef .tc main_arg12) = _
  after_results

theorem keep2_main_arg12 (c : Dev nD) : W2 m ρ c (Proc.devRef .tc main_arg12) = W1 m ρ c (Proc.devRef .tc main_arg12) :=
  W2_of_ne m ρ c main_arg12 (by decide)

theorem keep3_main_arg12 (c : Dev nD) : W3 m ρ c (Proc.devRef .tc main_arg12) = W2 m ρ c (Proc.devRef .tc main_arg12) := by
  show StableHlo.after hostOps1 (W2 m ρ c) (Proc.devRef .tc main_arg12) = _
  after_results

theorem keep4_main_arg12 (c : Dev nD) : W4 m ρ c (Proc.devRef .tc main_arg12) = W3 m ρ c (Proc.devRef .tc main_arg12) :=
  W4_of_ne m ρ c main_arg12 (by decide)

theorem keep5_main_arg12 (c : Dev nD) : W5 m ρ c (Proc.devRef .tc main_arg12) = W4 m ρ c (Proc.devRef .tc main_arg12) := by
  show StableHlo.after hostOps2 (W4 m ρ c) (Proc.devRef .tc main_arg12) = _
  after_results

theorem keep1_main_arg13 (c : Dev nD) : W1 m ρ c (Proc.devRef .tc main_arg13) = W0 m ρ c (Proc.devRef .tc main_arg13) := by
  show StableHlo.after hostOps0 (W0 m ρ c) (Proc.devRef .tc main_arg13) = _
  after_results

theorem keep2_main_arg13 (c : Dev nD) : W2 m ρ c (Proc.devRef .tc main_arg13) = W1 m ρ c (Proc.devRef .tc main_arg13) :=
  W2_of_ne m ρ c main_arg13 (by decide)

theorem keep3_main_arg13 (c : Dev nD) : W3 m ρ c (Proc.devRef .tc main_arg13) = W2 m ρ c (Proc.devRef .tc main_arg13) := by
  show StableHlo.after hostOps1 (W2 m ρ c) (Proc.devRef .tc main_arg13) = _
  after_results

theorem keep4_main_arg13 (c : Dev nD) : W4 m ρ c (Proc.devRef .tc main_arg13) = W3 m ρ c (Proc.devRef .tc main_arg13) :=
  W4_of_ne m ρ c main_arg13 (by decide)

theorem keep5_main_arg13 (c : Dev nD) : W5 m ρ c (Proc.devRef .tc main_arg13) = W4 m ρ c (Proc.devRef .tc main_arg13) := by
  show StableHlo.after hostOps2 (W4 m ρ c) (Proc.devRef .tc main_arg13) = _
  after_results

theorem keep6_main_arg13 (c : Dev nD) : W6 m ρ c (Proc.devRef .tc main_arg13) = W5 m ρ c (Proc.devRef .tc main_arg13) :=
  W6_of_ne m ρ c main_arg13 (by decide)

theorem keep7_main_arg13 (c : Dev nD) : W7 m ρ c (Proc.devRef .tc main_arg13) = W6 m ρ c (Proc.devRef .tc main_arg13) := by
  show StableHlo.after hostOps3 (W6 m ρ c) (Proc.devRef .tc main_arg13) = _
  after_results

theorem keep1_main_arg14 (c : Dev nD) : W1 m ρ c (Proc.devRef .tc main_arg14) = W0 m ρ c (Proc.devRef .tc main_arg14) := by
  show StableHlo.after hostOps0 (W0 m ρ c) (Proc.devRef .tc main_arg14) = _
  after_results

theorem keep2_main_arg14 (c : Dev nD) : W2 m ρ c (Proc.devRef .tc main_arg14) = W1 m ρ c (Proc.devRef .tc main_arg14) :=
  W2_of_ne m ρ c main_arg14 (by decide)

theorem keep3_main_arg14 (c : Dev nD) : W3 m ρ c (Proc.devRef .tc main_arg14) = W2 m ρ c (Proc.devRef .tc main_arg14) := by
  show StableHlo.after hostOps1 (W2 m ρ c) (Proc.devRef .tc main_arg14) = _
  after_results

theorem keep4_main_arg14 (c : Dev nD) : W4 m ρ c (Proc.devRef .tc main_arg14) = W3 m ρ c (Proc.devRef .tc main_arg14) :=
  W4_of_ne m ρ c main_arg14 (by decide)

theorem keep5_main_arg14 (c : Dev nD) : W5 m ρ c (Proc.devRef .tc main_arg14) = W4 m ρ c (Proc.devRef .tc main_arg14) := by
  show StableHlo.after hostOps2 (W4 m ρ c) (Proc.devRef .tc main_arg14) = _
  after_results

theorem keep6_main_arg14 (c : Dev nD) : W6 m ρ c (Proc.devRef .tc main_arg14) = W5 m ρ c (Proc.devRef .tc main_arg14) :=
  W6_of_ne m ρ c main_arg14 (by decide)

theorem keep1_main_arg15 (c : Dev nD) : W1 m ρ c (Proc.devRef .tc main_arg15) = W0 m ρ c (Proc.devRef .tc main_arg15) := by
  show StableHlo.after hostOps0 (W0 m ρ c) (Proc.devRef .tc main_arg15) = _
  after_results

theorem keep2_main_arg15 (c : Dev nD) : W2 m ρ c (Proc.devRef .tc main_arg15) = W1 m ρ c (Proc.devRef .tc main_arg15) :=
  W2_of_ne m ρ c main_arg15 (by decide)

theorem keep3_main_arg15 (c : Dev nD) : W3 m ρ c (Proc.devRef .tc main_arg15) = W2 m ρ c (Proc.devRef .tc main_arg15) := by
  show StableHlo.after hostOps1 (W2 m ρ c) (Proc.devRef .tc main_arg15) = _
  after_results

theorem keep4_main_arg15 (c : Dev nD) : W4 m ρ c (Proc.devRef .tc main_arg15) = W3 m ρ c (Proc.devRef .tc main_arg15) :=
  W4_of_ne m ρ c main_arg15 (by decide)

theorem keep5_main_arg15 (c : Dev nD) : W5 m ρ c (Proc.devRef .tc main_arg15) = W4 m ρ c (Proc.devRef .tc main_arg15) := by
  show StableHlo.after hostOps2 (W4 m ρ c) (Proc.devRef .tc main_arg15) = _
  after_results

theorem keep6_main_arg15 (c : Dev nD) : W6 m ρ c (Proc.devRef .tc main_arg15) = W5 m ρ c (Proc.devRef .tc main_arg15) :=
  W6_of_ne m ρ c main_arg15 (by decide)

theorem keep7_main_arg15 (c : Dev nD) : W7 m ρ c (Proc.devRef .tc main_arg15) = W6 m ρ c (Proc.devRef .tc main_arg15) := by
  show StableHlo.after hostOps3 (W6 m ρ c) (Proc.devRef .tc main_arg15) = _
  after_results

theorem keep2_main_v37 (c : Dev nD) : W2 m ρ c (Proc.devRef .tc main_v37) = W1 m ρ c (Proc.devRef .tc main_v37) :=
  W2_of_ne m ρ c main_v37 (by decide)

theorem keep3_main_v37 (c : Dev nD) : W3 m ρ c (Proc.devRef .tc main_v37) = W2 m ρ c (Proc.devRef .tc main_v37) := by
  show StableHlo.after hostOps1 (W2 m ρ c) (Proc.devRef .tc main_v37) = _
  after_results

theorem keep3_main_v39 (c : Dev nD) : W3 m ρ c (Proc.devRef .tc main_v39) = W2 m ρ c (Proc.devRef .tc main_v39) := by
  show StableHlo.after hostOps1 (W2 m ρ c) (Proc.devRef .tc main_v39) = _
  after_results

theorem keep4_main_v39 (c : Dev nD) : W4 m ρ c (Proc.devRef .tc main_v39) = W3 m ρ c (Proc.devRef .tc main_v39) :=
  W4_of_ne m ρ c main_v39 (by decide)

theorem keep5_main_v39 (c : Dev nD) : W5 m ρ c (Proc.devRef .tc main_v39) = W4 m ρ c (Proc.devRef .tc main_v39) := by
  show StableHlo.after hostOps2 (W4 m ρ c) (Proc.devRef .tc main_v39) = _
  after_results

theorem keep5_main_v41 (c : Dev nD) : W5 m ρ c (Proc.devRef .tc main_v41) = W4 m ρ c (Proc.devRef .tc main_v41) := by
  show StableHlo.after hostOps2 (W4 m ρ c) (Proc.devRef .tc main_v41) = _
  after_results

theorem keep6_main_v41 (c : Dev nD) : W6 m ρ c (Proc.devRef .tc main_v41) = W5 m ρ c (Proc.devRef .tc main_v41) :=
  W6_of_ne m ρ c main_v41 (by decide)

theorem keep7_main_v41 (c : Dev nD) : W7 m ρ c (Proc.devRef .tc main_v41) = W6 m ρ c (Proc.devRef .tc main_v41) := by
  show StableHlo.after hostOps3 (W6 m ρ c) (Proc.devRef .tc main_v41) = _
  after_results

theorem keep6_main_v79 (c : Dev nD) : W6 m ρ c (Proc.devRef .tc main_v79) = W5 m ρ c (Proc.devRef .tc main_v79) :=
  W6_of_ne m ρ c main_v79 (by decide)

theorem keep7_main_v79 (c : Dev nD) : W7 m ρ c (Proc.devRef .tc main_v79) = W6 m ρ c (Proc.devRef .tc main_v79) := by
  show StableHlo.after hostOps3 (W6 m ρ c) (Proc.devRef .tc main_v79) = _
  after_results

theorem keep7_main_v81 (c : Dev nD) : W7 m ρ c (Proc.devRef .tc main_v81) = W6 m ρ c (Proc.devRef .tc main_v81) := by
  show StableHlo.after hostOps3 (W6 m ρ c) (Proc.devRef .tc main_v81) = _
  after_results

theorem keep8_main_v81 (c : Dev nD) : W8 m ρ c (Proc.devRef .tc main_v81) = W7 m ρ c (Proc.devRef .tc main_v81) :=
  W8_of_ne m ρ c main_v81 (by decide)

/-! ## From where a buffer is read back to where it was written (or to the launch memory) -/

theorem at3_main_arg0 (c : Dev nD) : W3 m ρ c (Proc.devRef .tc main_arg0) = m ((c : Thread nD τ).loc main_arg0) :=
  (keep3_main_arg0 m ρ c).trans ((keep2_main_arg0 m ρ c).trans ((keep1_main_arg0 m ρ c).trans (rfl)))

theorem at1_main_arg1 (c : Dev nD) : W1 m ρ c (Proc.devRef .tc main_arg1) = m ((c : Thread nD τ).loc main_arg1) :=
  (keep1_main_arg1 m ρ c).trans (rfl)

theorem at4_main_arg2 (c : Dev nD) : W4 m ρ c (Proc.devRef .tc main_arg2) = m ((c : Thread nD τ).loc main_arg2) :=
  (keep4_main_arg2 m ρ c).trans ((keep3_main_arg2 m ρ c).trans ((keep2_main_arg2 m ρ c).trans ((keep1_main_arg2 m ρ c).trans (rfl))))

theorem at4_main_arg3 (c : Dev nD) : W4 m ρ c (Proc.devRef .tc main_arg3) = m ((c : Thread nD τ).loc main_arg3) :=
  (keep4_main_arg3 m ρ c).trans ((keep3_main_arg3 m ρ c).trans ((keep2_main_arg3 m ρ c).trans ((keep1_main_arg3 m ρ c).trans (rfl))))

theorem at1_main_arg4 (c : Dev nD) : W1 m ρ c (Proc.devRef .tc main_arg4) = m ((c : Thread nD τ).loc main_arg4) :=
  (keep1_main_arg4 m ρ c).trans (rfl)

theorem at1_main_arg6 (c : Dev nD) : W1 m ρ c (Proc.devRef .tc main_arg6) = m ((c : Thread nD τ).loc main_arg6) :=
  (keep1_main_arg6 m ρ c).trans (rfl)

theorem at3_main_arg7 (c : Dev nD) : W3 m ρ c (Proc.devRef .tc main_arg7) = m ((c : Thread nD τ).loc main_arg7) :=
  (keep3_main_arg7 m ρ c).trans ((keep2_main_arg7 m ρ c).trans ((keep1_main_arg7 m ρ c).trans (rfl)))

theorem at2_main_arg8 (c : Dev nD) : W2 m ρ c (Proc.devRef .tc main_arg8) = m ((c : Thread nD τ).loc main_arg8) :=
  (keep2_main_arg8 m ρ c).trans ((keep1_main_arg8 m ρ c).trans (rfl))

theorem at3_main_arg9 (c : Dev nD) : W3 m ρ c (Proc.devRef .tc main_arg9) = m ((c : Thread nD τ).loc main_arg9) :=
  (keep3_main_arg9 m ρ c).trans ((keep2_main_arg9 m ρ c).trans ((keep1_main_arg9 m ρ c).trans (rfl)))

theorem at5_main_arg10 (c : Dev nD) : W5 m ρ c (Proc.devRef .tc main_arg10) = m ((c : Thread nD τ).loc main_arg10) :=
  (keep5_main_arg10 m ρ c).trans ((keep4_main_arg10 m ρ c).trans ((keep3_main_arg10 m ρ c).trans ((keep2_main_arg10 m ρ c).trans ((keep1_main_arg10 m ρ c).trans (rfl)))))

theorem at4_main_arg11 (c : Dev nD) : W4 m ρ c (Proc.devRef .tc main_arg11) = m ((c : Thread nD τ).loc main_arg11) :=
  (keep4_main_arg11 m ρ c).trans ((keep3_main_arg11 m ρ c).trans ((keep2_main_arg11 m ρ c).trans ((keep1_main_arg11 m ρ c).trans (rfl))))

theorem at5_main_arg12 (c : Dev nD) : W5 m ρ c (Proc.devRef .tc main_arg12) = m ((c : Thread nD τ).loc main_arg12) :=
  (keep5_main_arg12 m ρ c).trans ((keep4_main_arg12 m ρ c).trans ((keep3_main_arg12 m ρ c).trans ((keep2_main_arg12 m ρ c).trans ((keep1_main_arg12 m ρ c).trans (rfl)))))

theorem at7_main_arg13 (c : Dev nD) : W7 m ρ c (Proc.devRef .tc main_arg13) = m ((c : Thread nD τ).loc main_arg13) :=
  (keep7_main_arg13 m ρ c).trans ((keep6_main_arg13 m ρ c).trans ((keep5_main_arg13 m ρ c).trans ((keep4_main_arg13 m ρ c).trans ((keep3_main_arg13 m ρ c).trans ((keep2_main_arg13 m ρ c).trans ((keep1_main_arg13 m ρ c).trans (rfl)))))))

theorem at6_main_arg14 (c : Dev nD) : W6 m ρ c (Proc.devRef .tc main_arg14) = m ((c : Thread nD τ).loc main_arg14) :=
  (keep6_main_arg14 m ρ c).trans ((keep5_main_arg14 m ρ c).trans ((keep4_main_arg14 m ρ c).trans ((keep3_main_arg14 m ρ c).trans ((keep2_main_arg14 m ρ c).trans ((keep1_main_arg14 m ρ c).trans (rfl))))))

theorem at7_main_arg15 (c : Dev nD) : W7 m ρ c (Proc.devRef .tc main_arg15) = m ((c : Thread nD τ).loc main_arg15) :=
  (keep7_main_arg15 m ρ c).trans ((keep6_main_arg15 m ρ c).trans ((keep5_main_arg15 m ρ c).trans ((keep4_main_arg15 m ρ c).trans ((keep3_main_arg15 m ρ c).trans ((keep2_main_arg15 m ρ c).trans ((keep1_main_arg15 m ρ c).trans (rfl)))))))

theorem at3_main_v37 (c : Dev nD) : W3 m ρ c (Proc.devRef .tc main_v37) = W1 m ρ c (Proc.devRef .tc main_v37) :=
  (keep3_main_v37 m ρ c).trans (keep2_main_v37 m ρ c)

theorem at5_main_v39 (c : Dev nD) : W5 m ρ c (Proc.devRef .tc main_v39) = W2 m ρ c (Proc.devRef .tc main_v39) :=
  (keep5_main_v39 m ρ c).trans ((keep4_main_v39 m ρ c).trans (keep3_main_v39 m ρ c))

theorem at7_main_v41 (c : Dev nD) : W7 m ρ c (Proc.devRef .tc main_v41) = W4 m ρ c (Proc.devRef .tc main_v41) :=
  (keep7_main_v41 m ρ c).trans ((keep6_main_v41 m ρ c).trans (keep5_main_v41 m ρ c))

theorem at7_main_v79 (c : Dev nD) : W7 m ρ c (Proc.devRef .tc main_v79) = W5 m ρ c (Proc.devRef .tc main_v79) :=
  (keep7_main_v79 m ρ c).trans (keep6_main_v79 m ρ c)

theorem at8_main_v81 (c : Dev nD) : W8 m ρ c (Proc.devRef .tc main_v81) = W6 m ρ c (Proc.devRef .tc main_v81) :=
  (keep8_main_v81 m ρ c).trans (keep7_main_v81 m ρ c)

end Cert.KernelIdeal.Keep

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«127901_j62294205662068_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«127901_j62294205662068_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibSageCombine.lean ====
/-
  One dense step of a mean-aggregation graph layer on the extended reals, as a function of whole arrays.

  For an r×k array A of aggregated neighbour features, an r×k array X of the nodes' own features, two k×n weight
  matrices Wl, Wr and a 1×n bias row b,
      combine A X Wl Wr b (p, q) = (Σ_c A(p,c)·Wl(c,q) + Σ_c X(p,c)·Wr(c,q)) + b(0,q),
  and `leaky c v` is v where 0 < v and v·c elsewhere.  A kernel body that adds the two products first and the
  bias last computes `combine`; a reference that adds the bias between the two products computes the same sum
  regrouped, (P + b) + Q = (P + Q) + b, which holds on the extended reals with no finiteness because addition
  there is commutative and associative.  A reference that tests 0 ≤ v and multiplies c·v agrees with a kernel
  that tests 0 < v and multiplies v·c: they differ only at v = 0, where 0·c = 0.  An entry of `combine` depends
  on one row of A and of X, so a block of rows of A and X gives the same rows of the whole result.
  Nothing here mentions a program.
-/
import Idealize.ShloMosaic.PureOps.Ideal.Laws
import Idealize.ShloMosaic.Lib.ValueIdx
import Idealize.ShloMosaic.Lib.Pipeline.Value
import Idealize.ShloMosaic.Lib.ValueLayout
import proofs.«127901_j62294205662068_1_alg».proof.Proof.LibBlockReads
import proofs.«127901_j62294205662068_1_alg».proof.Proof.LibMatProd
import proofs.«127901_j62294205662068_1_alg».proof.Proof.LibRowVector

open scoped BigOperators

noncomputable section

namespace Cert.Sage

open Idealize.ShloMosaic Idealize.ShloMosaic.ValueIdx Cert.Lib.MatProd Cert.Lib.RowVector

variable {r k n : Nat}

/-- The leaky rectifier with slope c on the extended reals. -/
def leaky (c v : EReal) : EReal := if 0 < v then v else v * c

/-- A select on "v is above zero" between v and v·c is the leaky rectifier. -/
theorem select_above (c v : EReal) : Scalar.select (Ideal.cmp .ogt v 0) v (v * c) = leaky c v := by
  unfold leaky Scalar.select Ideal.cmp
  by_cases h : (0 : EReal) < v <;> simp [h]

/-- A select on "v is at least zero" between v and c·v is the same function: at v = 0 both branches are 0. -/
theorem select_atLeast (c v : EReal) : Scalar.select (Ideal.cmp .oge v 0) v (c * v) = leaky c v := by
  unfold leaky Scalar.select Ideal.cmp
  rcases lt_trichotomy (0 : EReal) v with h | h | h
  · simp [h, h.le]
  · subst h; simp
  · simp [not_lt.mpr h.le, not_le.mpr h, mul_comm]

/-- The two products added, then the bias row. -/
def combine (A X : (⟨2, ![r, k]⟩ : Shape).Idx → EReal) (Wl Wr : (⟨2, ![k, n]⟩ : Shape).Idx → EReal)
    (b : (⟨2, ![1, n]⟩ : Shape).Idx → EReal) : (⟨2, ![r, n]⟩ : Shape).Idx → EReal :=
  fun i => (matProd A Wl i + matProd X Wr i) + b (ix2 0 (i 1))

theorem combine_apply (A X : (⟨2, ![r, k]⟩ : Shape).Idx → EReal) (Wl Wr : (⟨2, ![k, n]⟩ : Shape).Idx → EReal)
    (b : (⟨2, ![1, n]⟩ : Shape).Idx → EReal) (p : Fin r) (q : Fin n) :
    combine A X Wl Wr b (ix2 p q) = (matProd A Wl (ix2 p q) + matProd X Wr (ix2 p q)) + b (ix2 0 q) := rfl

/-- The same followed by the leaky rectifier. -/
def combineLeaky (c : EReal) (A X : (⟨2, ![r, k]⟩ : Shape).Idx → EReal) (Wl Wr : (⟨2, ![k, n]⟩ : Shape).Idx → EReal)
    (b : (⟨2, ![1, n]⟩ : Shape).Idx → EReal) : (⟨2, ![r, n]⟩ : Shape).Idx → EReal :=
  fun i => leaky c (combine A X Wl Wr b i)

/-- Row y of a block that is row p of the whole arrays gives row p of the whole result. -/
theorem combine_block {r' : Nat} (A X : (⟨2, ![r, k]⟩ : Shape).Idx → EReal) (A' X' : (⟨2, ![r', k]⟩ : Shape).Idx → EReal)
    (Wl Wr : (⟨2, ![k, n]⟩ : Shape).Idx → EReal) (b : (⟨2, ![1, n]⟩ : Shape).Idx → EReal)
    (y : Fin r') (p : Fin r) (q : Fin n)
    (hA : ∀ c : Fin k, A' (ix2 y c) = A (ix2 p c)) (hX : ∀ c : Fin k, X' (ix2 y c) = X (ix2 p c)) :
    combine A' X' Wl Wr b (ix2 y q) = combine A X Wl Wr b (ix2 p q) := by
  rw [combine_apply, combine_apply,
    matProd_block A A' Wl Wl y q p q hA (fun _ => rfl), matProd_block X X' Wr Wr y q p q hX (fun _ => rfl)]

/-- The reference's spelling: product, bias vector broadcast to a row and down the rows, second product. -/
theorem host_combine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A X : FVec Ideal ⟨2, ![r, k]⟩ .f32) (Wl Wr : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (addf (Host.dotGeneral d none A Wl)
        (broadcastInDim ⟨2, ![r, n]⟩ ![0, 1] h2 (broadcastInDim ⟨2, ![1, n]⟩ ![1] h1 bv)))
      (Host.dotGeneral d none X Wr) = combine A X Wl Wr (asRow bv) := by
  funext i
  obtain ⟨p, q, rfl⟩ : ∃ (p : Fin r) (q : Fin n), i = ix2 p q := ⟨i 0, i 1, eq_ix2 i⟩
  rw [addf_apply, addf_apply, combine_apply, bcastInDim_rows_apply, bcastInDim_eq_asRow,
    show Host.dotGeneral d none A Wl = matProd A Wl from dotGeneral_eq_matProd d hlc hrc hln hrn hlb hrb none .single A Wl,
    show Host.dotGeneral d none X Wr = matProd X Wr from dotGeneral_eq_matProd d hlc hrc hln hrn hlb hrb none .single X Wr]
  exact add_right_comm _ _ _

/-- On the extended reals a change of float format is the identity, so a product of two narrowed blocks into zeros
    is `matProd` of the blocks. -/
theorem body_product (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (B : FVec Ideal ⟨2, ![k, n]⟩ .f32) (hb : FTy.bf16.bits < FTy.f32.bits) :
    matmul d none (truncf .bf16 A hb) (truncf .bf16 B hb) (constant ⟨2, ![r, n]⟩ .f32 0x00000000#32) = matProd A B :=
  matmul_zero_eq_matProd d hlc hrc hln hrn hlb hrb none (truncf .bf16 A hb) (truncf .bf16 B hb)

/-- A kernel body's spelling: the two products of narrowed blocks added, then the 1×n bias row broadcast down the
    rows and added. -/
theorem body_combine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A X : FVec Ideal ⟨2, ![r, k]⟩ .f32) (Wl Wr : FVec Ideal ⟨2, ![k, n]⟩ .f32) (b : FVec Ideal ⟨2, ![1, n]⟩ .f32)
    (hb : FTy.bf16.bits < FTy.f32.bits) (hbc : (⟨2, ![1, n]⟩ : Shape).Broadcasts ⟨2, ![r, n]⟩) :
    addf (addf (matmul d none (truncf .bf16 A hb) (truncf .bf16 Wl hb) (constant ⟨2, ![r, n]⟩ .f32 0x00000000#32))
        (matmul d none (truncf .bf16 X hb) (truncf .bf16 Wr hb) (constant ⟨2, ![r, n]⟩ .f32 0x00000000#32)))
      (broadcastTo ⟨2, ![r, n]⟩ b hbc) = combine A X Wl Wr b := by
  funext i
  obtain ⟨p, q, rfl⟩ : ∃ (p : Fin r) (q : Fin n), i = ix2 p q := ⟨i 0, i 1, eq_ix2 i⟩
  rw [addf_apply, addf_apply, Cert.Lib.BlockReads.broadcast_row_apply,
    body_product d hlc hrc hln hrn hlb hrb A Wl hb, body_product d hlc hrc hln hrn hlb hrb X Wr hb, combine_apply]

/-- A kernel body's rectifier: select on v > 0 between v and v times a splat slope. -/
theorem body_leaky {s : Shape} (w : BitVec 32) (v : FVec Ideal s .f32) :
    select (cmpf .ogt v (broadcast s (Scalar.ofBits (F := Ideal) .f32 0x00000000#32))) v
        (mulf v (broadcast s (Scalar.ofBits (F := Ideal) .f32 w)))
      = fun i => leaky (Ideal.ofBits .f32 w) (v i) := by
  funext i
  show Scalar.select (Ideal.cmp .ogt (v i) (Ideal.ofBits .f32 0x00000000#32)) (v i) (v i * Ideal.ofBits .f32 w) = _
  rw [Ideal.ofBits_zero_f32]
  exact select_above _ _

/-- A reference's rectifier: select on v ≥ 0 between v and a broadcast slope times v. -/
theorem host_leaky {s : Shape} (w : BitVec 32) (v : FVec Ideal s .f32) (h : (⟨0, ![]⟩ : Shape).BroadcastsInDim s ![]) :
    select (cmpf .oge v (broadcastInDim s ![] h (constant ⟨0, ![]⟩ .f32 0x00000000#32))) v
        (mulf (broadcastInDim s ![] h (constant ⟨0, ![]⟩ .f32 w)) v)
      = fun i => leaky (Ideal.ofBits .f32 w) (v i) := by
  funext i
  rw [select_apply, cmpf_apply, mulf_apply, bcastInDim_scalar_apply, bcastInDim_scalar_apply, constant_apply,
    constant_apply, Ideal.cmpf_def, Ideal.ofBits_zero_f32]
  exact select_atLeast _ _

end Cert.Sage

end
-- ==== Proof.Region0.lean ====
/-
  Each kernel region's output array as ONE function of the arrays the region finds, on the extended reals.

  A region's grid runs over blocks of 5000 consecutive rows.  At point t the body loads rows 5000·t … 5000·t+4999 of
  the aggregated features and of the nodes' own features, the two whole 64×64 weight matrices and the whole 1×64 bias
  row, and stores (A·Wl + X·Wr) + b for those rows (followed, in the first layer, by the leaky rectifier).  An entry of
  that result depends on one row of A and X only, so the block a point writes back is the same rows of the dense step
  of the WHOLE arrays; row r is written back by point r / 5000, so the blocks cover the output array and it ends
  holding the dense step of the whole arrays.  Everything is stated at a parameter V, the buffer contents the
  region is entered with.
-/
import proofs.«127901_j62294205662068_1_alg».proof.Proof.Gen.KernelIdeal.Frame
import proofs.«127901_j62294205662068_1_alg».proof.Proof.LibSageCombine
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.Lib.MatProd

variable (V : (c : Dev nD) → (b : Ref sig .tc) → Buf (Elt Ideal) ((c : Thread nD τ).loc b))

/-- The zero offset of a rank-2 rectangle, as a constant function. -/
theorem hz : (![0, 0] : Fin 2 → Nat) = fun _ => 0 := funext fun a => by fin_cases a <;> rfl

/-- The first layer's slope: the single-precision word 3C23D70A. -/
abbrev slope : EReal := Ideal.ofBits .f32 0x3C23D70A#32

/-! ## Region 0: 100000 rows in 20 blocks of 5000 -/

/-- The body's arithmetic on its five loaded blocks is the dense step followed by the leaky rectifier. -/
theorem pay0_eq (x0 x1 : Vec Ideal S5000x64 .f32) (x2 x4 : Vec Ideal S64x64 .f32) (x3 : Vec Ideal S1x64 .f32) :
    k0_pay1 (F := Ideal) x0 x1 x2 x4 x3 = combineLeaky slope x0 x1 x2 x4 x3 := by
  unfold k0_pay1
  simp only [shapeCast_self]
  rw [body_leaky, body_combine dot_S5000x64_S64x64_S5000x64_1_0_0_1_n_n rfl rfl rfl rfl rfl rfl]
  rfl

/-- The printed index maps over the grid: the row windows and the output sit at block row t, the weights and the
    bias at their whole arrays. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_5.index t (0 : Fin 2) = t.val
    ∧ win0_5.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0 :=
  (by decide +kernel : ∀ t : Fin grid0.N, _)

/-- Row p' of point t's block of window 0 is row t·5000 + p' of its array. -/
theorem rowsA0 (c : Dev nD) (t : Fin cfg0.N) (p' : Fin 5000) (cc : Fin 64) (hp : t.val * 5000 + p'.val < 100000) :
    iblk0 V c 0 t (ix2 p' cc) = V c main_v18 (ix2 ⟨t.val * 5000 + p'.val, hp⟩ cc) := by
  obtain ⟨e0, e1, -, -, -, -, -, -, -, -, -, -⟩ := idx0 t
  show V c main_v18 (((cfg0.win 0).blk t).view.emb (ix2 p' cc)) = V c main_v18 _
  refine congrArg _ (funext fun a => Fin.ext ?_)
  match a with
  | ⟨0, _⟩ => show win0_0.index t (0 : Fin 2) * 5000 + 1 * p'.val = t.val * 5000 + p'.val; rw [e0]; omega
  | ⟨1, _⟩ => show win0_0.index t (1 : Fin 2) * 64 + 1 * cc.val = cc.val; rw [e1]; omega

/-- Row p' of point t's block of window 1 is row t·5000 + p' of its array. -/
theorem rowsX0 (c : Dev nD) (t : Fin cfg0.N) (p' : Fin 5000) (cc : Fin 64) (hp : t.val * 5000 + p'.val < 100000) :
    iblk0 V c 1 t (ix2 p' cc) = V c main_arg1 (ix2 ⟨t.val * 5000 + p'.val, hp⟩ cc) := by
  obtain ⟨-, -, e0, e1, -, -, -, -, -, -, -, -⟩ := idx0 t
  show V c main_arg1 (((cfg0.win 1).blk t).view.emb (ix2 p' cc)) = V c main_arg1 _
  refine congrArg _ (funext fun a => Fin.ext ?_)
  match a with
  | ⟨0, _⟩ => show win0_1.index t (0 : Fin 2) * 5000 + 1 * p'.val = t.val * 5000 + p'.val; rw [e0]; omega
  | ⟨1, _⟩ => show win0_1.index t (1 : Fin 2) * 64 + 1 * cc.val = cc.val; rw [e1]; omega

/-- Window 2's block at every point is its whole array. -/
theorem whole0_2 (c : Dev nD) (t : Fin cfg0.N) : (iblk0 V c 2 t : S64x64.Idx → EReal) = V c main_arg4 := by
  obtain ⟨-, -, -, -, -, -, e0, e1, -, -, -, -⟩ := idx0 t
  funext z
  show V c main_arg4 (((cfg0.win 2).blk t).view.emb z) = V c main_arg4 z
  refine congrArg _ (funext fun a => Fin.ext ?_)
  match a with
  | ⟨0, _⟩ => show win0_2.index t (0 : Fin 2) * 64 + 1 * (z 0).val = (z 0).val; rw [e0]; omega
  | ⟨1, _⟩ => show win0_2.index t (1 : Fin 2) * 64 + 1 * (z 1).val = (z 1).val; rw [e1]; omega

/-- Window 3's block at every point is its whole array. -/
theorem whole0_3 (c : Dev nD) (t : Fin cfg0.N) : (iblk0 V c 3 t : S1x64.Idx → EReal) = V c main_v38 := by
  obtain ⟨-, -, -, -, -, -, -, -, e0, e1, -, -⟩ := idx0 t
  funext z
  show V c main_v38 (((cfg0.win 3).blk t).view.emb z) = V c main_v38 z
  refine congrArg _ (funext fun a => Fin.ext ?_)
  match a with
  | ⟨0, _⟩ => show win0_3.index t (0 : Fin 2) * 1 + 1 * (z 0).val = (z 0).val; rw [e0]; omega
  | ⟨1, _⟩ => show win0_3.index t (1 : Fin 2) * 64 + 1 * (z 1).val = (z 1).val; rw [e1]; omega

/-- Window 4's block at every point is its whole array. -/
theorem whole0_4 (c : Dev nD) (t : Fin cfg0.N) : (iblk0 V c 4 t : S64x64.Idx → EReal) = V c main_arg6 := by
  obtain ⟨-, -, -, -, -, -, -, -, -, -, e0, e1⟩ := idx0 t
  funext z
  show V c main_arg6 (((cfg0.win 4).blk t).view.emb z) = V c main_arg6 z
  refine congrArg _ (funext fun a => Fin.ext ?_)
  match a with
  | ⟨0, _⟩ => show win0_4.index t (0 : Fin 2) * 64 + 1 * (z 0).val = (z 0).val; rw [e0]; omega
  | ⟨1, _⟩ => show win0_4.index t (1 : Fin 2) * 64 + 1 * (z 1).val = (z 1).val; rw [e1]; omega

/-- What the region's output array ends holding: the dense step and rectifier of the arrays as the region finds them. -/
abbrev G0 (c : Dev nD) : S100000x64.Idx → EReal :=
  combineLeaky slope (V c main_v18) (V c main_arg1) (V c main_arg4) (V c main_arg6) (V c main_v38)

/-- What point t writes back is block t of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [pay0_eq, whole0_2 V c t, whole0_3 V c t, whole0_4 V c t]
  funext y
  obtain ⟨p', q, rfl⟩ : ∃ (p' : Fin 5000) (q : Fin 64), y = ix2 p' q := ⟨y 0, y 1, eq_ix2 y⟩
  have ht : t.val < 20 := lt_of_lt_of_eq t.isLt N_0
  have hp : t.val * 5000 + p'.val < 100000 := by have := p'.isLt; omega
  obtain ⟨-, -, -, -, e0, e1, -, -, -, -, -, -⟩ := idx0 t
  have hemb : ((cfg0.win 5).blk t).view.emb (ix2 p' q) = ix2 ⟨t.val * 5000 + p'.val, hp⟩ q := by
    funext a; apply Fin.ext
    match a with
    | ⟨0, _⟩ => show win0_5.index t (0 : Fin 2) * 5000 + 1 * p'.val = t.val * 5000 + p'.val; rw [e0]; omega
    | ⟨1, _⟩ => show win0_5.index t (1 : Fin 2) * 64 + 1 * q.val = q.val; rw [e1]; omega
  show leaky slope (combine (iblk0 V c 0 t) (iblk0 V c 1 t) (V c main_arg4) (V c main_arg6) (V c main_v38) (ix2 p' q))
    = leaky slope (combine (V c main_v18) (V c main_arg1) (V c main_arg4) (V c main_arg6) (V c main_v38) (((cfg0.win 5).blk t).view.emb (ix2 p' q)))
  rw [hemb]
  exact congrArg (leaky slope) (combine_block _ _ _ _ _ _ _ p' ⟨_, hp⟩ q (fun cc => rowsA0 V c t p' cc hp)
    (fun cc => rowsX0 V c t p' cc hp))

/-- An index of the output array is in point t's block iff each coordinate is in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v39).slice (win0_5.rect t)).set ↔ _
  rw [View.set_slice_whole, Rect.mem_set_unit]
  exact Iff.rfl

/-- Row r of the output array is written back by point r / 5000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, e0, e1, -, -, -, -, -, -⟩ := idx0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-- The region's output array after its last write-back. -/
theorem final0 (c : Dev nD) : (dat0 V c).arrAt 5 cfg0.N = G0 V c :=
  (dat0 V c).arrAt_eq_of_cover 5 (G0 V c) (fun t _ => flushed0 V c t) (cover0)

end Cert.KernelIdeal.Region0

end
-- ==== Proof.Region1.lean ====
/-
  Each kernel region's output array as ONE function of the arrays the region finds, on the extended reals.

  A region's grid runs over blocks of 5000 consecutive rows.  At point t the body loads rows 5000·t … 5000·t+4999 of
  the aggregated features and of the nodes' own features, the two whole 64×64 weight matrices and the whole 1×64 bias
  row, and stores (A·Wl + X·Wr) + b for those rows (followed, in the first layer, by the leaky rectifier).  An entry of
  that result depends on one row of A and X only, so the block a point writes back is the same rows of the dense step
  of the WHOLE arrays; row r is written back by point r / 5000, so the blocks cover the output array and it ends
  holding the dense step of the whole arrays.  Everything is stated at a parameter V, the buffer contents the
  region is entered with.
-/
import proofs.«127901_j62294205662068_1_alg».proof.Proof.Gen.KernelIdeal.Frame
import proofs.«127901_j62294205662068_1_alg».proof.Proof.LibSageCombine
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.Lib.MatProd

variable (V : (c : Dev nD) → (b : Ref sig .tc) → Buf (Elt Ideal) ((c : Thread nD τ).loc b))

/-- The zero offset of a rank-2 rectangle, as a constant function. -/
theorem hz : (![0, 0] : Fin 2 → Nat) = fun _ => 0 := funext fun a => by fin_cases a <;> rfl

/-- The first layer's slope: the single-precision word 3C23D70A. -/
abbrev slope : EReal := Ideal.ofBits .f32 0x3C23D70A#32

/-! ## Region 1: 500000 rows in 100 blocks of 5000 -/

/-- The body's arithmetic on its five loaded blocks is the dense step followed by the leaky rectifier. -/
theorem pay1_eq (x0 x1 : Vec Ideal S5000x64 .f32) (x2 x4 : Vec Ideal S64x64 .f32) (x3 : Vec Ideal S1x64 .f32) :
    k1_pay1 (F := Ideal) x0 x1 x2 x4 x3 = combineLeaky slope x0 x1 x2 x4 x3 := by
  unfold k1_pay1
  simp only [shapeCast_self]
  rw [body_leaky, body_combine dot_S5000x64_S64x64_S5000x64_1_0_0_1_n_n rfl rfl rfl rfl rfl rfl]
  rfl

/-- The printed index maps over the grid: the row windows and the output sit at block row t, the weights and the
    bias at their whole arrays. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_5.index t (0 : Fin 2) = t.val
    ∧ win1_5.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- Row p' of point t's block of window 0 is row t·5000 + p' of its array. -/
theorem rowsA1 (c : Dev nD) (t : Fin cfg1.N) (p' : Fin 5000) (cc : Fin 64) (hp : t.val * 5000 + p'.val < 500000) :
    iblk1 V c 0 t (ix2 p' cc) = V c main_v37 (ix2 ⟨t.val * 5000 + p'.val, hp⟩ cc) := by
  obtain ⟨e0, e1, -, -, -, -, -, -, -, -, -, -⟩ := idx1 t
  show V c main_v37 (((cfg1.win 0).blk t).view.emb (ix2 p' cc)) = V c main_v37 _
  refine congrArg _ (funext fun a => Fin.ext ?_)
  match a with
  | ⟨0, _⟩ => show win1_0.index t (0 : Fin 2) * 5000 + 1 * p'.val = t.val * 5000 + p'.val; rw [e0]; omega
  | ⟨1, _⟩ => show win1_0.index t (1 : Fin 2) * 64 + 1 * cc.val = cc.val; rw [e1]; omega

/-- Row p' of point t's block of window 1 is row t·5000 + p' of its array. -/
theorem rowsX1 (c : Dev nD) (t : Fin cfg1.N) (p' : Fin 5000) (cc : Fin 64) (hp : t.val * 5000 + p'.val < 500000) :
    iblk1 V c 1 t (ix2 p' cc) = V c main_arg0 (ix2 ⟨t.val * 5000 + p'.val, hp⟩ cc) := by
  obtain ⟨-, -, e0, e1, -, -, -, -, -, -, -, -⟩ := idx1 t
  show V c main_arg0 (((cfg1.win 1).blk t).view.emb (ix2 p' cc)) = V c main_arg0 _
  refine congrArg _ (funext fun a => Fin.ext ?_)
  match a with
  | ⟨0, _⟩ => show win1_1.index t (0 : Fin 2) * 5000 + 1 * p'.val = t.val * 5000 + p'.val; rw [e0]; omega
  | ⟨1, _⟩ => show win1_1.index t (1 : Fin 2) * 64 + 1 * cc.val = cc.val; rw [e1]; omega

/-- Window 2's block at every point is its whole array. -/
theorem whole1_2 (c : Dev nD) (t : Fin cfg1.N) : (iblk1 V c 2 t : S64x64.Idx → EReal) = V c main_arg7 := by
  obtain ⟨-, -, -, -, -, -, e0, e1, -, -, -, -⟩ := idx1 t
  funext z
  show V c main_arg7 (((cfg1.win 2).blk t).view.emb z) = V c main_arg7 z
  refine congrArg _ (funext fun a => Fin.ext ?_)
  match a with
  | ⟨0, _⟩ => show win1_2.index t (0 : Fin 2) * 64 + 1 * (z 0).val = (z 0).val; rw [e0]; omega
  | ⟨1, _⟩ => show win1_2.index t (1 : Fin 2) * 64 + 1 * (z 1).val = (z 1).val; rw [e1]; omega

/-- Window 3's block at every point is its whole array. -/
theorem whole1_3 (c : Dev nD) (t : Fin cfg1.N) : (iblk1 V c 3 t : S1x64.Idx → EReal) = V c main_v40 := by
  obtain ⟨-, -, -, -, -, -, -, -, e0, e1, -, -⟩ := idx1 t
  funext z
  show V c main_v40 (((cfg1.win 3).blk t).view.emb z) = V c main_v40 z
  refine congrArg _ (funext fun a => Fin.ext ?_)
  match a with
  | ⟨0, _⟩ => show win1_3.index t (0 : Fin 2) * 1 + 1 * (z 0).val = (z 0).val; rw [e0]; omega
  | ⟨1, _⟩ => show win1_3.index t (1 : Fin 2) * 64 + 1 * (z 1).val = (z 1).val; rw [e1]; omega

/-- Window 4's block at every point is its whole array. -/
theorem whole1_4 (c : Dev nD) (t : Fin cfg1.N) : (iblk1 V c 4 t : S64x64.Idx → EReal) = V c main_arg9 := by
  obtain ⟨-, -, -, -, -, -, -, -, -, -, e0, e1⟩ := idx1 t
  funext z
  show V c main_arg9 (((cfg1.win 4).blk t).view.emb z) = V c main_arg9 z
  refine congrArg _ (funext fun a => Fin.ext ?_)
  match a with
  | ⟨0, _⟩ => show win1_4.index t (0 : Fin 2) * 64 + 1 * (z 0).val = (z 0).val; rw [e0]; omega
  | ⟨1, _⟩ => show win1_4.index t (1 : Fin 2) * 64 + 1 * (z 1).val = (z 1).val; rw [e1]; omega

/-- What the region's output array ends holding: the dense step and rectifier of the arrays as the region finds them. -/
abbrev G1 (c : Dev nD) : S500000x64.Idx → EReal :=
  combineLeaky slope (V c main_v37) (V c main_arg0) (V c main_arg7) (V c main_arg9) (V c main_v40)

/-- What point t writes back is block t of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [pay1_eq, whole1_2 V c t, whole1_3 V c t, whole1_4 V c t]
  funext y
  obtain ⟨p', q, rfl⟩ : ∃ (p' : Fin 5000) (q : Fin 64), y = ix2 p' q := ⟨y 0, y 1, eq_ix2 y⟩
  have ht : t.val < 100 := lt_of_lt_of_eq t.isLt N_1
  have hp : t.val * 5000 + p'.val < 500000 := by have := p'.isLt; omega
  obtain ⟨-, -, -, -, e0, e1, -, -, -, -, -, -⟩ := idx1 t
  have hemb : ((cfg1.win 5).blk t).view.emb (ix2 p' q) = ix2 ⟨t.val * 5000 + p'.val, hp⟩ q := by
    funext a; apply Fin.ext
    match a with
    | ⟨0, _⟩ => show win1_5.index t (0 : Fin 2) * 5000 + 1 * p'.val = t.val * 5000 + p'.val; rw [e0]; omega
    | ⟨1, _⟩ => show win1_5.index t (1 : Fin 2) * 64 + 1 * q.val = q.val; rw [e1]; omega
  show leaky slope (combine (iblk1 V c 0 t) (iblk1 V c 1 t) (V c main_arg7) (V c main_arg9) (V c main_v40) (ix2 p' q))
    = leaky slope (combine (V c main_v37) (V c main_arg0) (V c main_arg7) (V c main_arg9) (V c main_v40) (((cfg1.win 5).blk t).view.emb (ix2 p' q)))
  rw [hemb]
  exact congrArg (leaky slope) (combine_block _ _ _ _ _ _ _ p' ⟨_, hp⟩ q (fun cc => rowsA1 V c t p' cc hp)
    (fun cc => rowsX1 V c t p' cc hp))

/-- An index of the output array is in point t's block iff each coordinate is in the block's range. -/
theorem mem_blk1 (t : Fin cfg1.N) (i : S500000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Row r of the output array is written back by point r / 5000. -/
theorem cover1 (i : S500000x64.Idx) :
    ∃ t : Fin cfg1.N, (cfg1.win 5).flush t = true ∧ i ∈ ((cfg1.win 5).blk t).view.set := by
  have hi0 : (i 0).val < 500000 := (i 0).isLt
  have hi1 : (i 1).val < 64 := (i 1).isLt
  have hN : cfg1.N = 100 := N_1
  have hlt : (i 0).val / 5000 < cfg1.N := by rw [hN]; omega
  obtain ⟨-, -, -, -, e0, e1, -, -, -, -, -, -⟩ := idx1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-- The region's output array after its last write-back. -/
theorem final1 (c : Dev nD) : (dat1 V c).arrAt 5 cfg1.N = G1 V c :=
  (dat1 V c).arrAt_eq_of_cover 5 (G1 V c) (fun t _ => flushed1 V c t) (cover1)

end Cert.KernelIdeal.Region1

end
-- ==== Proof.Region2.lean ====
/-
  Each kernel region's output array as ONE function of the arrays the region finds, on the extended reals.

  A region's grid runs over blocks of 5000 consecutive rows.  At point t the body loads rows 5000·t … 5000·t+4999 of
  the aggregated features and of the nodes' own features, the two whole 64×64 weight matrices and the whole 1×64 bias
  row, and stores (A·Wl + X·Wr) + b for those rows (followed, in the first layer, by the leaky rectifier).  An entry of
  that result depends on one row of A and X only, so the block a point writes back is the same rows of the dense step
  of the WHOLE arrays; row r is written back by point r / 5000, so the blocks cover the output array and it ends
  holding the dense step of the whole arrays.  Everything is stated at a parameter V, the buffer contents the
  region is entered with.
-/
import proofs.«127901_j62294205662068_1_alg».proof.Proof.Gen.KernelIdeal.Frame
import proofs.«127901_j62294205662068_1_alg».proof.Proof.LibSageCombine
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.Lib.MatProd

variable (V : (c : Dev nD) → (b : Ref sig .tc) → Buf (Elt Ideal) ((c : Thread nD τ).loc b))

/-- The zero offset of a rank-2 rectangle, as a constant function. -/
theorem hz : (![0, 0] : Fin 2 → Nat) = fun _ => 0 := funext fun a => by fin_cases a <;> rfl

/-! ## Region 2: 100000 rows in 20 blocks of 5000 -/

/-- The body's arithmetic on its five loaded blocks is the dense step. -/
theorem pay2_eq (x0 x1 : Vec Ideal S5000x64 .f32) (x2 x4 : Vec Ideal S64x64 .f32) (x3 : Vec Ideal S1x64 .f32) :
    k2_pay1 (F := Ideal) x0 x1 x2 x4 x3 = combine x0 x1 x2 x4 x3 := by
  unfold k2_pay1
  simp only [shapeCast_self]
  rw [body_combine dot_S5000x64_S64x64_S5000x64_1_0_0_1_n_n rfl rfl rfl rfl rfl rfl]

/-- The printed index maps over the grid: the row windows and the output sit at block row t, the weights and the
    bias at their whole arrays. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_5.index t (0 : Fin 2) = t.val
    ∧ win2_5.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- Row p' of point t's block of window 0 is row t·5000 + p' of its array. -/
theorem rowsA2 (c : Dev nD) (t : Fin cfg2.N) (p' : Fin 5000) (cc : Fin 64) (hp : t.val * 5000 + p'.val < 100000) :
    iblk2 V c 0 t (ix2 p' cc) = V c main_v60 (ix2 ⟨t.val * 5000 + p'.val, hp⟩ cc) := by
  obtain ⟨e0, e1, -, -, -, -, -, -, -, -, -, -⟩ := idx2 t
  show V c main_v60 (((cfg2.win 0).blk t).view.emb (ix2 p' cc)) = V c main_v60 _
  refine congrArg _ (funext fun a => Fin.ext ?_)
  match a with
  | ⟨0, _⟩ => show win2_0.index t (0 : Fin 2) * 5000 + 1 * p'.val = t.val * 5000 + p'.val; rw [e0]; omega
  | ⟨1, _⟩ => show win2_0.index t (1 : Fin 2) * 64 + 1 * cc.val = cc.val; rw [e1]; omega

/-- Row p' of point t's block of window 1 is row t·5000 + p' of its array. -/
theorem rowsX2 (c : Dev nD) (t : Fin cfg2.N) (p' : Fin 5000) (cc : Fin 64) (hp : t.val * 5000 + p'.val < 100000) :
    iblk2 V c 1 t (ix2 p' cc) = V c main_v39 (ix2 ⟨t.val * 5000 + p'.val, hp⟩ cc) := by
  obtain ⟨-, -, e0, e1, -, -, -, -, -, -, -, -⟩ := idx2 t
  show V c main_v39 (((cfg2.win 1).blk t).view.emb (ix2 p' cc)) = V c main_v39 _
  refine congrArg _ (funext fun a => Fin.ext ?_)
  match a with
  | ⟨0, _⟩ => show win2_1.index t (0 : Fin 2) * 5000 + 1 * p'.val = t.val * 5000 + p'.val; rw [e0]; omega
  | ⟨1, _⟩ => show win2_1.index t (1 : Fin 2) * 64 + 1 * cc.val = cc.val; rw [e1]; omega

/-- Window 2's block at every point is its whole array. -/
theorem whole2_2 (c : Dev nD) (t : Fin cfg2.N) : (iblk2 V c 2 t : S64x64.Idx → EReal) = V c main_arg10 := by
  obtain ⟨-, -, -, -, -, -, e0, e1, -, -, -, -⟩ := idx2 t
  funext z
  show V c main_arg10 (((cfg2.win 2).blk t).view.emb z) = V c main_arg10 z
  refine congrArg _ (funext fun a => Fin.ext ?_)
  match a with
  | ⟨0, _⟩ => show win2_2.index t (0 : Fin 2) * 64 + 1 * (z 0).val = (z 0).val; rw [e0]; omega
  | ⟨1, _⟩ => show win2_2.index t (1 : Fin 2) * 64 + 1 * (z 1).val = (z 1).val; rw [e1]; omega

/-- Window 3's block at every point is its whole array. -/
theorem whole2_3 (c : Dev nD) (t : Fin cfg2.N) : (iblk2 V c 3 t : S1x64.Idx → EReal) = V c main_v80 := by
  obtain ⟨-, -, -, -, -, -, -, -, e0, e1, -, -⟩ := idx2 t
  funext z
  show V c main_v80 (((cfg2.win 3).blk t).view.emb z) = V c main_v80 z
  refine congrArg _ (funext fun a => Fin.ext ?_)
  match a with
  | ⟨0, _⟩ => show win2_3.index t (0 : Fin 2) * 1 + 1 * (z 0).val = (z 0).val; rw [e0]; omega
  | ⟨1, _⟩ => show win2_3.index t (1 : Fin 2) * 64 + 1 * (z 1).val = (z 1).val; rw [e1]; omega

/-- Window 4's block at every point is its whole array. -/
theorem whole2_4 (c : Dev nD) (t : Fin cfg2.N) : (iblk2 V c 4 t : S64x64.Idx → EReal) = V c main_arg12 := by
  obtain ⟨-, -, -, -, -, -, -, -, -, -, e0, e1⟩ := idx2 t
  funext z
  show V c main_arg12 (((cfg2.win 4).blk t).view.emb z) = V c main_arg12 z
  refine congrArg _ (funext fun a => Fin.ext ?_)
  match a with
  | ⟨0, _⟩ => show win2_4.index t (0 : Fin 2) * 64 + 1 * (z 0).val = (z 0).val; rw [e0]; omega
  | ⟨1, _⟩ => show win2_4.index t (1 : Fin 2) * 64 + 1 * (z 1).val = (z 1).val; rw [e1]; omega

/-- What the region's output array ends holding: the dense step of the arrays as the region finds them. -/
abbrev G2 (c : Dev nD) : S100000x64.Idx → EReal :=
  combine (V c main_v60) (V c main_v39) (V c main_arg10) (V c main_arg12) (V c main_v80)

/-- What point t writes back is block t of that function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  rw [pay2_eq, whole2_2 V c t, whole2_3 V c t, whole2_4 V c t]
  funext y
  obtain ⟨p', q, rfl⟩ : ∃ (p' : Fin 5000) (q : Fin 64), y = ix2 p' q := ⟨y 0, y 1, eq_ix2 y⟩
  have ht : t.val < 20 := lt_of_lt_of_eq t.isLt N_2
  have hp : t.val * 5000 + p'.val < 100000 := by have := p'.isLt; omega
  obtain ⟨-, -, -, -, e0, e1, -, -, -, -, -, -⟩ := idx2 t
  have hemb : ((cfg2.win 5).blk t).view.emb (ix2 p' q) = ix2 ⟨t.val * 5000 + p'.val, hp⟩ q := by
    funext a; apply Fin.ext
    match a with
    | ⟨0, _⟩ => show win2_5.index t (0 : Fin 2) * 5000 + 1 * p'.val = t.val * 5000 + p'.val; rw [e0]; omega
    | ⟨1, _⟩ => show win2_5.index t (1 : Fin 2) * 64 + 1 * q.val = q.val; rw [e1]; omega
  show combine (iblk2 V c 0 t) (iblk2 V c 1 t) (V c main_arg10) (V c main_arg12) (V c main_v80) (ix2 p' q)
    = combine (V c main_v60) (V c main_v39) (V c main_arg10) (V c main_arg12) (V c main_v80) (((cfg2.win 5).blk t).view.emb (ix2 p' q))
  rw [hemb]
  exact combine_block _ _ _ _ _ _ _ p' ⟨_, hp⟩ q (fun cc => rowsA2 V c t p' cc hp)
    (fun cc => rowsX2 V c t p' cc hp)

/-- An index of the output array is in point t's block iff each coordinate is in the block's range. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v81).slice (win2_5.rect t)).set ↔ _
  rw [View.set_slice_whole, Rect.mem_set_unit]
  exact Iff.rfl

/-- Row r of the output array is written back by point r / 5000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, e0, e1, -, -, -, -, -, -⟩ := idx2 ⟨(i 0).val / 5000, hlt⟩
  refine ⟨⟨(i 0).val / 5000, hlt⟩, flush2_5 _, ?_⟩
  rw [mem_blk2]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e1]; omega

/-- The region's output array after its last write-back. -/
theorem final2 (c : Dev nD) : (dat2 V c).arrAt 5 cfg2.N = G2 V c :=
  (dat2 V c).arrAt_eq_of_cover 5 (G2 V c) (fun t _ => flushed2 V c t) (cover2)

end Cert.KernelIdeal.Region2

end
-- ==== Proof.Region3.lean ====
/-
  Each kernel region's output array as ONE function of the arrays the region finds, on the extended reals.

  A region's grid runs over blocks of 5000 consecutive rows.  At point t the body loads rows 5000·t … 5000·t+4999 of
  the aggregated features and of the nodes' own features, the two whole 64×64 weight matrices and the whole 1×64 bias
  row, and stores (A·Wl + X·Wr) + b for those rows (followed, in the first layer, by the leaky rectifier).  An entry of
  that result depends on one row of A and X only, so the block a point writes back is the same rows of the dense step
  of the WHOLE arrays; row r is written back by point r / 5000, so the blocks cover the output array and it ends
  holding the dense step of the whole arrays.  Everything is stated at a parameter V, the buffer contents the
  region is entered with.
-/
import proofs.«127901_j62294205662068_1_alg».proof.Proof.Gen.KernelIdeal.Frame
import proofs.«127901_j62294205662068_1_alg».proof.Proof.LibSageCombine
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.Lib.MatProd

variable (V : (c : Dev nD) → (b : Ref sig .tc) → Buf (Elt Ideal) ((c : Thread nD τ).loc b))

/-- The zero offset of a rank-2 rectangle, as a constant function. -/
theorem hz : (![0, 0] : Fin 2 → Nat) = fun _ => 0 := funext fun a => by fin_cases a <;> rfl

/-! ## Region 3: 500000 rows in 100 blocks of 5000 -/

/-- The body's arithmetic on its five loaded blocks is the dense step. -/
theorem pay3_eq (x0 x1 : Vec Ideal S5000x64 .f32) (x2 x4 : Vec Ideal S64x64 .f32) (x3 : Vec Ideal S1x64 .f32) :
    k3_pay1 (F := Ideal) x0 x1 x2 x4 x3 = combine x0 x1 x2 x4 x3 := by
  unfold k3_pay1
  simp only [shapeCast_self]
  rw [body_combine dot_S5000x64_S64x64_S5000x64_1_0_0_1_n_n rfl rfl rfl rfl rfl rfl]

/-- The printed index maps over the grid: the row windows and the output sit at block row t, the weights and the
    bias at their whole arrays. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_5.index t (0 : Fin 2) = t.val
    ∧ win3_5.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

/-- Row p' of point t's block of window 0 is row t·5000 + p' of its array. -/
theorem rowsA3 (c : Dev nD) (t : Fin cfg3.N) (p' : Fin 5000) (cc : Fin 64) (hp : t.val * 5000 + p'.val < 500000) :
    iblk3 V c 0 t (ix2 p' cc) = V c main_v79 (ix2 ⟨t.val * 5000 + p'.val, hp⟩ cc) := by
  obtain ⟨e0, e1, -, -, -, -, -, -, -, -, -, -⟩ := idx3 t
  show V c main_v79 (((cfg3.win 0).blk t).view.emb (ix2 p' cc)) = V c main_v79 _
  refine congrArg _ (funext fun a => Fin.ext ?_)
  match a with
  | ⟨0, _⟩ => show win3_0.index t (0 : Fin 2) * 5000 + 1 * p'.val = t.val * 5000 + p'.val; rw [e0]; omega
  | ⟨1, _⟩ => show win3_0.index t (1 : Fin 2) * 64 + 1 * cc.val = cc.val; rw [e1]; omega

/-- Row p' of point t's block of window 1 is row t·5000 + p' of its array. -/
theorem rowsX3 (c : Dev nD) (t : Fin cfg3.N) (p' : Fin 5000) (cc : Fin 64) (hp : t.val * 5000 + p'.val < 500000) :
    iblk3 V c 1 t (ix2 p' cc) = V c main_v41 (ix2 ⟨t.val * 5000 + p'.val, hp⟩ cc) := by
  obtain ⟨-, -, e0, e1, -, -, -, -, -, -, -, -⟩ := idx3 t
  show V c main_v41 (((cfg3.win 1).blk t).view.emb (ix2 p' cc)) = V c main_v41 _
  refine congrArg _ (funext fun a => Fin.ext ?_)
  match a with
  | ⟨0, _⟩ => show win3_1.index t (0 : Fin 2) * 5000 + 1 * p'.val = t.val * 5000 + p'.val; rw [e0]; omega
  | ⟨1, _⟩ => show win3_1.index t (1 : Fin 2) * 64 + 1 * cc.val = cc.val; rw [e1]; omega

/-- Window 2's block at every point is its whole array. -/
theorem whole3_2 (c : Dev nD) (t : Fin cfg3.N) : (iblk3 V c 2 t : S64x64.Idx → EReal) = V c main_arg13 := by
  obtain ⟨-, -, -, -, -, -, e0, e1, -, -, -, -⟩ := idx3 t
  funext z
  show V c main_arg13 (((cfg3.win 2).blk t).view.emb z) = V c main_arg13 z
  refine congrArg _ (funext fun a => Fin.ext ?_)
  match a with
  | ⟨0, _⟩ => show win3_2.index t (0 : Fin 2) * 64 + 1 * (z 0).val = (z 0).val; rw [e0]; omega
  | ⟨1, _⟩ => show win3_2.index t (1 : Fin 2) * 64 + 1 * (z 1).val = (z 1).val; rw [e1]; omega

/-- Window 3's block at every point is its whole array. -/
theorem whole3_3 (c : Dev nD) (t : Fin cfg3.N) : (iblk3 V c 3 t : S1x64.Idx → EReal) = V c main_v82 := by
  obtain ⟨-, -, -, -, -, -, -, -, e0, e1, -, -⟩ := idx3 t
  funext z
  show V c main_v82 (((cfg3.win 3).blk t).view.emb z) = V c main_v82 z
  refine congrArg _ (funext fun a => Fin.ext ?_)
  match a with
  | ⟨0, _⟩ => show win3_3.index t (0 : Fin 2) * 1 + 1 * (z 0).val = (z 0).val; rw [e0]; omega
  | ⟨1, _⟩ => show win3_3.index t (1 : Fin 2) * 64 + 1 * (z 1).val = (z 1).val; rw [e1]; omega

/-- Window 4's block at every point is its whole array. -/
theorem whole3_4 (c : Dev nD) (t : Fin cfg3.N) : (iblk3 V c 4 t : S64x64.Idx → EReal) = V c main_arg15 := by
  obtain ⟨-, -, -, -, -, -, -, -, -, -, e0, e1⟩ := idx3 t
  funext z
  show V c main_arg15 (((cfg3.win 4).blk t).view.emb z) = V c main_arg15 z
  refine congrArg _ (funext fun a => Fin.ext ?_)
  match a with
  | ⟨0, _⟩ => show win3_4.index t (0 : Fin 2) * 64 + 1 * (z 0).val = (z 0).val; rw [e0]; omega
  | ⟨1, _⟩ => show win3_4.index t (1 : Fin 2) * 64 + 1 * (z 1).val = (z 1).val; rw [e1]; omega

/-- What the region's output array ends holding: the dense step of the arrays as the region finds them. -/
abbrev G3 (c : Dev nD) : S500000x64.Idx → EReal :=
  combine (V c main_v79) (V c main_v41) (V c main_arg13) (V c main_arg15) (V c main_v82)

/-- What point t writes back is block t of that function. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz]
  rw [pay3_eq, whole3_2 V c t, whole3_3 V c t, whole3_4 V c t]
  funext y
  obtain ⟨p', q, rfl⟩ : ∃ (p' : Fin 5000) (q : Fin 64), y = ix2 p' q := ⟨y 0, y 1, eq_ix2 y⟩
  have ht : t.val < 100 := lt_of_lt_of_eq t.isLt N_3
  have hp : t.val * 5000 + p'.val < 500000 := by have := p'.isLt; omega
  obtain ⟨-, -, -, -, e0, e1, -, -, -, -, -, -⟩ := idx3 t
  have hemb : ((cfg3.win 5).blk t).view.emb (ix2 p' q) = ix2 ⟨t.val * 5000 + p'.val, hp⟩ q := by
    funext a; apply Fin.ext
    match a with
    | ⟨0, _⟩ => show win3_5.index t (0 : Fin 2) * 5000 + 1 * p'.val = t.val * 5000 + p'.val; rw [e0]; omega
    | ⟨1, _⟩ => show win3_5.index t (1 : Fin 2) * 64 + 1 * q.val = q.val; rw [e1]; omega
  show combine (iblk3 V c 0 t) (iblk3 V c 1 t) (V c main_arg13) (V c main_arg15) (V c main_v82) (ix2 p' q)
    = combine (V c main_v79) (V c main_v41) (V c main_arg13) (V c main_arg15) (V c main_v82) (((cfg3.win 5).blk t).view.emb (ix2 p' q))
  rw [hemb]
  exact combine_block _ _ _ _ _ _ _ p' ⟨_, hp⟩ q (fun cc => rowsA3 V c t p' cc hp)
    (fun cc => rowsX3 V c t p' cc hp)

/-- An index of the output array is in point t's block iff each coordinate is in the block's range. -/
theorem mem_blk3 (t : Fin cfg3.N) (i : S500000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v83).slice (win3_5.rect t)).set ↔ _
  rw [View.set_slice_whole, Rect.mem_set_unit]
  exact Iff.rfl

/-- Row r of the output array is written back by point r / 5000. -/
theorem cover3 (i : S500000x64.Idx) :
    ∃ t : Fin cfg3.N, (cfg3.win 5).flush t = true ∧ i ∈ ((cfg3.win 5).blk t).view.set := by
  have hi0 : (i 0).val < 500000 := (i 0).isLt
  have hi1 : (i 1).val < 64 := (i 1).isLt
  have hN : cfg3.N = 100 := N_3
  have hlt : (i 0).val / 5000 < cfg3.N := by rw [hN]; omega
  obtain ⟨-, -, -, -, e0, e1, -, -, -, -, -, -⟩ := idx3 ⟨(i 0).val / 5000, hlt⟩
  refine ⟨⟨(i 0).val / 5000, hlt⟩, flush3_5 _, ?_⟩
  rw [mem_blk3]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hlt⟩ (1 : Fin 2) * 64 ≤ (i 1).val ∧ (i 1).val < win3_5.index ⟨(i 0).val / 5000, hlt⟩ (1 : Fin 2) * 64 + 64
    rw [e1]; omega

/-- The region's output array after its last write-back. -/
theorem final3 (c : Dev nD) : (dat3 V c).arrAt 5 cfg3.N = G3 V c :=
  (dat3 V c).arrAt_eq_of_cover 5 (G3 V c) (fun t _ => flushed3 V c t) (cover3)

end Cert.KernelIdeal.Region3

end
-- ==== Proof.Stages.lean ====
/-
  The stages both programs are made of, as pure functions of whole arrays, at any float instance.

  A two-layer graph network on a bipartite graph of 500000 "u" nodes and 100000 "m" nodes joined by 1250000 edges
  (src : the u end, dst : the m end of each edge).  `segM feat src dst` is the mean, at every m node, of the rows
  of `feat` (one row per u node) over the edges that end at it: rows gathered at the (wrapped) src index of each edge,
  summed into the edge's dst row, divided by the number of such edges joined with one.  `segU` is the same the other
  way round.  `hostDenseM`/`hostDenseU` is a reference's dense step (product, bias, second product) and
  `hostLeakyM`/`hostLeakyU` its leaky rectifier; `refM1`/`refU1` compose them into the reference's two results.
  The records and side conditions are the reference program's own.
-/
import proofs.«127901_j62294205662068_1_alg».proof.ReferenceIdeal

noncomputable section

namespace Cert.Stages

open Idealize.ShloMosaic Cert.ReferenceIdeal

variable {F : FTy → Type} [FloatOps F] [Cert.ReferenceIdeal.Facts]
open Cert.ReferenceIdeal.Facts₀ Cert.ReferenceIdeal.Facts

/-- A negative u index counted from the end: idx + 500000 where idx < 0. -/
abbrev wrapU (idx : (⟨S1250000, .i32⟩ : BufTy).Contents (Elt F)) : (⟨S1250000, .i32⟩ : BufTy).Contents (Elt F) :=
  select (cmpi .slt idx (broadcastInDim S1250000 ![] bcast_S_S1250000 (constantI S_ 32 0#32)))
    (addi idx (broadcastInDim S1250000 ![] bcast_S_S1250000 (constantI S_ 32 500000#32))) idx

/-- A negative m index counted from the end: idx + 100000 where idx < 0. -/
abbrev wrapM (idx : (⟨S1250000, .i32⟩ : BufTy).Contents (Elt F)) : (⟨S1250000, .i32⟩ : BufTy).Contents (Elt F) :=
  select (cmpi .slt idx (broadcastInDim S1250000 ![] bcast_S_S1250000 (constantI S_ 32 0#32)))
    (addi idx (broadcastInDim S1250000 ![] bcast_S_S1250000 (constantI S_ 32 100000#32))) idx

/-- The mean over incoming edges, at every m node, of the u rows `feat`. -/
abbrev segM (feat : (⟨S500000x64, .f32⟩ : BufTy).Contents (Elt F))
    (src dst : (⟨S1250000, .i32⟩ : BufTy).Contents (Elt F)) : (⟨S100000x64, .f32⟩ : BufTy).Contents (Elt F) :=
  Host.divf
    (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 dst)
      (Host.gather gather_S500000x64_S1250000x1_S1250000x64_1_0_n_n_0_1_164 feat
        (broadcastInDim S1250000x1 ![0] bcast_S1250000_S1250000x1_0 (wrapU src))))
    (broadcastInDim S100000x64 ![0, 1] bcast_S100000x1_S100000x64_0_1
      (broadcastInDim S100000x1 ![0] bcast_S100000_S100000x1_0
        (maximumf
          (Host.scatterAdd scatter_S100000_S1250000x1_S1250000_n_0_0_1
            (broadcastInDim S100000 ![] bcast_S_S100000 (constant S_ .f32 0x00000000#32))
            (broadcastInDim S1250000x1 ![0] bcast_S1250000_S1250000x1_0 dst)
            (broadcastInDim S1250000 ![] bcast_S_S1250000 (constant S_ .f32 0x3F800000#32)))
          (broadcastInDim S100000 ![] bcast_S_S100000 (constant S_ .f32 0x3F800000#32)))))

/-- The mean over incoming edges, at every u node, of the m rows `feat`. -/
abbrev segU (feat : (⟨S100000x64, .f32⟩ : BufTy).Contents (Elt F))
    (src dst : (⟨S1250000, .i32⟩ : BufTy).Contents (Elt F)) : (⟨S500000x64, .f32⟩ : BufTy).Contents (Elt F) :=
  Host.divf
    (Host.scatterAdd scatter_S500000x64_S1250000x1_S1250000x64_1_0_0_1
      (broadcastInDim S500000x64 ![] bcast_S_S500000x64 (constant S_ .f32 0x00000000#32))
      (broadcastInDim S1250000x1 ![0] bcast_S1250000_S1250000x1_0 src)
      (Host.gather gather_S100000x64_S1250000x1_S1250000x64_1_0_n_n_0_1_164 feat
        (broadcastInDim S1250000x1 ![0] bcast_S1250000_S1250000x1_0 (wrapM dst))))
    (broadcastInDim S500000x64 ![0, 1] bcast_S500000x1_S500000x64_0_1
      (broadcastInDim S500000x1 ![0] bcast_S500000_S500000x1_0
        (maximumf
          (Host.scatterAdd scatter_S500000_S1250000x1_S1250000_n_0_0_1
            (broadcastInDim S500000 ![] bcast_S_S500000 (constant S_ .f32 0x00000000#32))
            (broadcastInDim S1250000x1 ![0] bcast_S1250000_S1250000x1_0 src)
            (broadcastInDim S1250000 ![] bcast_S_S1250000 (constant S_ .f32 0x3F800000#32)))
          (broadcastInDim S500000 ![] bcast_S_S500000 (constant S_ .f32 0x3F800000#32)))))

/-- A reference's dense step on the m nodes: (A·Wl + bias) + X·Wr. -/
abbrev hostDenseM (A X : (⟨S100000x64, .f32⟩ : BufTy).Contents (Elt F)) (Wl : (⟨S64x64, .f32⟩ : BufTy).Contents (Elt F))
    (bv : (⟨S64, .f32⟩ : BufTy).Contents (Elt F)) (Wr : (⟨S64x64, .f32⟩ : BufTy).Contents (Elt F)) :
    (⟨S100000x64, .f32⟩ : BufTy).Contents (Elt F) :=
  addf (addf (Host.dotGeneral dot_S100000x64_S64x64_S100000x64_1_0_0_1_n_n none A Wl)
      (broadcastInDim S100000x64 ![0, 1] bcast_S1x64_S100000x64_0_1 (broadcastInDim S1x64 ![1] bcast_S64_S1x64_1 bv)))
    (Host.dotGeneral dot_S100000x64_S64x64_S100000x64_1_0_0_1_n_n none X Wr)

/-- A reference's dense step on the u nodes. -/
abbrev hostDenseU (A X : (⟨S500000x64, .f32⟩ : BufTy).Contents (Elt F)) (Wl : (⟨S64x64, .f32⟩ : BufTy).Contents (Elt F))
    (bv : (⟨S64, .f32⟩ : BufTy).Contents (Elt F)) (Wr : (⟨S64x64, .f32⟩ : BufTy).Contents (Elt F)) :
    (⟨S500000x64, .f32⟩ : BufTy).Contents (Elt F) :=
  addf (addf (Host.dotGeneral dot_S500000x64_S64x64_S500000x64_1_0_0_1_n_n none A Wl)
      (broadcastInDim S500000x64 ![0, 1] bcast_S1x64_S500000x64_0_1 (broadcastInDim S1x64 ![1] bcast_S64_S1x64_1 bv)))
    (Host.dotGeneral dot_S500000x64_S64x64_S500000x64_1_0_0_1_n_n none X Wr)

/-- A reference's leaky rectifier on the m nodes: v where v ≥ 0, slope·v elsewhere. -/
abbrev hostLeakyM (v : (⟨S100000x64, .f32⟩ : BufTy).Contents (Elt F)) : (⟨S100000x64, .f32⟩ : BufTy).Contents (Elt F) :=
  select (cmpf .oge v (broadcastInDim S100000x64 ![] bcast_S_S100000x64 (constant S_ .f32 0x00000000#32))) v
    (mulf (broadcastInDim S100000x64 ![] bcast_S_S100000x64 (constant S_ .f32 0x3C23D70A#32)) v)

/-- A reference's leaky rectifier on the u nodes. -/
abbrev hostLeakyU (v : (⟨S500000x64, .f32⟩ : BufTy).Contents (Elt F)) : (⟨S500000x64, .f32⟩ : BufTy).Contents (Elt F) :=
  select (cmpf .oge v (broadcastInDim S500000x64 ![] bcast_S_S500000x64 (constant S_ .f32 0x00000000#32))) v
    (mulf (broadcastInDim S500000x64 ![] bcast_S_S500000x64 (constant S_ .f32 0x3C23D70A#32)) v)

section Reference
variable (xu : (⟨S500000x64, .f32⟩ : BufTy).Contents (Elt F)) (xm : (⟨S100000x64, .f32⟩ : BufTy).Contents (Elt F))
  (src dst : (⟨S1250000, .i32⟩ : BufTy).Contents (Elt F))
  (w4 : (⟨S64x64, .f32⟩ : BufTy).Contents (Elt F)) (b5 : (⟨S64, .f32⟩ : BufTy).Contents (Elt F)) (w6 : (⟨S64x64, .f32⟩ : BufTy).Contents (Elt F))
  (w7 : (⟨S64x64, .f32⟩ : BufTy).Contents (Elt F)) (b8 : (⟨S64, .f32⟩ : BufTy).Contents (Elt F)) (w9 : (⟨S64x64, .f32⟩ : BufTy).Contents (Elt F))
  (w10 : (⟨S64x64, .f32⟩ : BufTy).Contents (Elt F)) (b11 : (⟨S64, .f32⟩ : BufTy).Contents (Elt F)) (w12 : (⟨S64x64, .f32⟩ : BufTy).Contents (Elt F))
  (w13 : (⟨S64x64, .f32⟩ : BufTy).Contents (Elt F)) (b14 : (⟨S64, .f32⟩ : BufTy).Contents (Elt F)) (w15 : (⟨S64x64, .f32⟩ : BufTy).Contents (Elt F))

/-- The reference's first-layer m features. -/
def refM0 : (⟨S100000x64, .f32⟩ : BufTy).Contents (Elt F) := hostLeakyM (hostDenseM (segM xu src dst) xm w4 b5 w6)
/-- The reference's first-layer u features. -/
def refU0 : (⟨S500000x64, .f32⟩ : BufTy).Contents (Elt F) := hostLeakyU (hostDenseU (segU xm src dst) xu w7 b8 w9)
/-- The reference's second-layer m features: its second result. -/
def refM1 : (⟨S100000x64, .f32⟩ : BufTy).Contents (Elt F) :=
  hostDenseM (segM (refU0 xu xm src dst w7 b8 w9) src dst) (refM0 xu xm src dst w4 b5 w6) w10 b11 w12
/-- The reference's second-layer u features: its first result. -/
def refU1 : (⟨S500000x64, .f32⟩ : BufTy).Contents (Elt F) :=
  hostDenseU (segU (refM0 xu xm src dst w4 b5 w6) src dst) (refU0 xu xm src dst w7 b8 w9) w13 b14 w15

end Reference

end Cert.Stages

end
-- ==== Proof.Bridge.lean ====
/-
  The two programs compute the same four stages, on the extended reals.

  Both programs aggregate with the same segment means (`segM`, `segU`); they differ in the dense step and the
  rectifier.  The kernel program's regions compute `combine` = (A·Wl + X·Wr) + b and, in the first layer, the leaky
  rectifier that tests 0 < v; the reference computes (A·Wl + b) + X·Wr and tests 0 ≤ v.  The dense steps are one sum
  regrouped (no finiteness is needed: extended-real addition is commutative and associative) and the rectifiers differ
  only at v = 0, where both give 0.  So stage by stage — first-layer m and u features, then second-layer — the
  reference's arrays are the kernel program's.
-/
import proofs.«127901_j62294205662068_1_alg».proof.Proof.Stages
import proofs.«127901_j62294205662068_1_alg».proof.Proof.LibSageCombine

noncomputable section

namespace Cert.Bridge

open Idealize.ShloMosaic Cert.ReferenceIdeal Cert.Stages Cert.Sage Cert.Lib.RowVector Cert.Lib.MatProd

variable [Cert.ReferenceIdeal.Facts]
open Cert.ReferenceIdeal.Facts₀ Cert.ReferenceIdeal.Facts

/-- The first layer's slope: the single-precision word 3C23D70A. -/
abbrev slope : EReal := Ideal.ofBits .f32 0x3C23D70A#32

/-- The reference's dense step on the m nodes is `combine` with the bias vector as a row. -/
theorem denseM_eq (A X : (⟨S100000x64, .f32⟩ : BufTy).Contents (Elt Ideal)) (Wl : (⟨S64x64, .f32⟩ : BufTy).Contents (Elt Ideal)) (bv : (⟨S64, .f32⟩ : BufTy).Contents (Elt Ideal))
    (Wr : (⟨S64x64, .f32⟩ : BufTy).Contents (Elt Ideal)) :
    hostDenseM (F := Ideal) A X Wl bv Wr = combine A X Wl Wr (asRow bv) :=
  host_combine dot_S100000x64_S64x64_S100000x64_1_0_0_1_n_n rfl rfl rfl rfl rfl rfl A X Wl Wr bv
    bcast_S64_S1x64_1 bcast_S1x64_S100000x64_0_1

/-- The reference's dense step on the u nodes is `combine` with the bias vector as a row. -/
theorem denseU_eq (A X : (⟨S500000x64, .f32⟩ : BufTy).Contents (Elt Ideal)) (Wl : (⟨S64x64, .f32⟩ : BufTy).Contents (Elt Ideal)) (bv : (⟨S64, .f32⟩ : BufTy).Contents (Elt Ideal))
    (Wr : (⟨S64x64, .f32⟩ : BufTy).Contents (Elt Ideal)) :
    hostDenseU (F := Ideal) A X Wl bv Wr = combine A X Wl Wr (asRow bv) :=
  host_combine dot_S500000x64_S64x64_S500000x64_1_0_0_1_n_n rfl rfl rfl rfl rfl rfl A X Wl Wr bv
    bcast_S64_S1x64_1 bcast_S1x64_S500000x64_0_1

/-- The reference's rectifier on the m nodes is the leaky rectifier entry by entry. -/
theorem leakyM_eq (v : (⟨S100000x64, .f32⟩ : BufTy).Contents (Elt Ideal)) : hostLeakyM (F := Ideal) v = fun i => leaky slope (v i) :=
  host_leaky 0x3C23D70A#32 v bcast_S_S100000x64

/-- The reference's rectifier on the u nodes is the leaky rectifier entry by entry. -/
theorem leakyU_eq (v : (⟨S500000x64, .f32⟩ : BufTy).Contents (Elt Ideal)) : hostLeakyU (F := Ideal) v = fun i => leaky slope (v i) :=
  host_leaky 0x3C23D70A#32 v bcast_S_S500000x64

section Stages
variable (xu : (⟨S500000x64, .f32⟩ : BufTy).Contents (Elt Ideal)) (xm : (⟨S100000x64, .f32⟩ : BufTy).Contents (Elt Ideal))
  (src dst : (⟨S1250000, .i32⟩ : BufTy).Contents (Elt Ideal))
  (w4 : (⟨S64x64, .f32⟩ : BufTy).Contents (Elt Ideal)) (b5 : (⟨S64, .f32⟩ : BufTy).Contents (Elt Ideal)) (w6 : (⟨S64x64, .f32⟩ : BufTy).Contents (Elt Ideal))
  (w7 : (⟨S64x64, .f32⟩ : BufTy).Contents (Elt Ideal)) (b8 : (⟨S64, .f32⟩ : BufTy).Contents (Elt Ideal)) (w9 : (⟨S64x64, .f32⟩ : BufTy).Contents (Elt Ideal))
  (w10 : (⟨S64x64, .f32⟩ : BufTy).Contents (Elt Ideal)) (b11 : (⟨S64, .f32⟩ : BufTy).Contents (Elt Ideal)) (w12 : (⟨S64x64, .f32⟩ : BufTy).Contents (Elt Ideal))
  (w13 : (⟨S64x64, .f32⟩ : BufTy).Contents (Elt Ideal)) (b14 : (⟨S64, .f32⟩ : BufTy).Contents (Elt Ideal)) (w15 : (⟨S64x64, .f32⟩ : BufTy).Contents (Elt Ideal))

/-- The kernel program's first-layer m features: region 0's output array. -/
def kerM0 : (⟨S100000x64, .f32⟩ : BufTy).Contents (Elt Ideal) := combineLeaky slope (segM (F := Ideal) xu src dst) xm w4 w6 (asRow b5)
/-- The kernel program's first-layer u features: region 1's output array. -/
def kerU0 : (⟨S500000x64, .f32⟩ : BufTy).Contents (Elt Ideal) := combineLeaky slope (segU (F := Ideal) xm src dst) xu w7 w9 (asRow b8)
/-- The kernel program's second-layer m features: region 2's output array, its second result. -/
def kerM1 : (⟨S100000x64, .f32⟩ : BufTy).Contents (Elt Ideal) :=
  combine (segM (F := Ideal) (kerU0 xu xm src dst w7 b8 w9) src dst) (kerM0 xu xm src dst w4 b5 w6) w10 w12 (asRow b11)
/-- The kernel program's second-layer u features: region 3's output array, its first result. -/
def kerU1 : (⟨S500000x64, .f32⟩ : BufTy).Contents (Elt Ideal) :=
  combine (segU (F := Ideal) (kerM0 xu xm src dst w4 b5 w6) src dst) (kerU0 xu xm src dst w7 b8 w9) w13 w15 (asRow b14)

theorem refM0_eq : refM0 (F := Ideal) xu xm src dst w4 b5 w6 = kerM0 xu xm src dst w4 b5 w6 := by
  unfold refM0 kerM0
  rw [leakyM_eq, denseM_eq]
  rfl

theorem refU0_eq : refU0 (F := Ideal) xu xm src dst w7 b8 w9 = kerU0 xu xm src dst w7 b8 w9 := by
  unfold refU0 kerU0
  rw [leakyU_eq, denseU_eq]
  rfl

theorem refM1_eq : refM1 (F := Ideal) xu xm src dst w4 b5 w6 w7 b8 w9 w10 b11 w12
    = kerM1 xu xm src dst w4 b5 w6 w7 b8 w9 w10 b11 w12 := by
  unfold refM1 kerM1
  rw [refU0_eq, refM0_eq, denseM_eq]

theorem refU1_eq : refU1 (F := Ideal) xu xm src dst w4 b5 w6 w7 b8 w9 w13 b14 w15
    = kerU1 xu xm src dst w4 b5 w6 w7 b8 w9 w13 b14 w15 := by
  unfold refU1 kerU1
  rw [refU0_eq, refM0_eq, denseU_eq]

end Stages

end Cert.Bridge

end
-- ==== Proof.KernelValue.lean ====
/-
  The kernel program's two results as functions of the launch contents.

  The last segment boundary's contents at a result buffer are read back through @main: a region's output array is the
  dense step of the arrays the region found (the region modules), a host stretch's result is its operations' term of
  what the stretch found (the segment means, and the re-shaping of a bias vector to a 1×64 row), and every other
  buffer is carried unchanged.  Composed, the second result is `kerM1` and the first `kerU1` of the arguments.
-/
import proofs.«127901_j62294205662068_1_alg».proof.Proof.KernelRun
import proofs.«127901_j62294205662068_1_alg».proof.Proof.KernelKeep
import proofs.«127901_j62294205662068_1_alg».proof.Proof.Region0
import proofs.«127901_j62294205662068_1_alg».proof.Proof.Region1
import proofs.«127901_j62294205662068_1_alg».proof.Proof.Region2
import proofs.«127901_j62294205662068_1_alg».proof.Proof.Region3
import proofs.«127901_j62294205662068_1_alg».proof.Proof.Bridge
import Idealize.ShloMosaic.Lib.StableHlo.Run

set_option maxRecDepth 16384

noncomputable section

namespace Cert.KernelIdeal.KernelValue

open Cert.KernelIdeal Cert.KernelIdeal.Gen Cert.KernelIdeal.Keep Cert.KernelIdeal.RegionRun
open Cert.Stages Cert.Bridge Cert.Sage Cert.Lib.RowVector
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg)

/-! ## The first host stretch: the first layer's two segment means and the first bias row -/

attribute [local irreducible] Host.scatterAdd Host.gather in
theorem v18_at1 (c : Dev nD) : (W1 m ρ c (Proc.devRef .tc main_v18)) = segM (m ((c : Thread nD τ).loc main_arg0)) (m ((c : Thread nD τ).loc main_arg2)) (m ((c : Thread nD τ).loc main_arg3)) := by
  show StableHlo.after hostOps0 (W0 m ρ c) (Proc.devRef .tc main_v18) = _
  after_results_simp
  rfl

attribute [local irreducible] Host.scatterAdd Host.gather in
theorem v37_at1 (c : Dev nD) : (W1 m ρ c (Proc.devRef .tc main_v37)) = segU (m ((c : Thread nD τ).loc main_arg1)) (m ((c : Thread nD τ).loc main_arg2)) (m ((c : Thread nD τ).loc main_arg3)) := by
  show StableHlo.after hostOps0 (W0 m ρ c) (Proc.devRef .tc main_v37) = _
  after_results_simp
  rfl

theorem v38_at1 (c : Dev nD) : (W1 m ρ c (Proc.devRef .tc main_v38)) = asRow (m ((c : Thread nD τ).loc main_arg5)) := by
  show StableHlo.after hostOps0 (W0 m ρ c) (Proc.devRef .tc main_v38) = _
  after_results_simp
  exact shapeCast_eq_asRow _ _

/-! ## Region 0: the first-layer m features -/

theorem v39_at2 (c : Dev nD) : (W2 m ρ c (Proc.devRef .tc main_v39)) = kerM0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 5).trans ((Region0.final0 (V1 m ρ) c).trans ?_)
  show combineLeaky Cert.Bridge.slope (W1 m ρ c (Proc.devRef .tc main_v18)) (W1 m ρ c (Proc.devRef .tc main_arg1)) (W1 m ρ c (Proc.devRef .tc main_arg4)) (W1 m ρ c (Proc.devRef .tc main_arg6)) (W1 m ρ c (Proc.devRef .tc main_v38)) = _
  rw [v18_at1, at1_main_arg1, at1_main_arg4, at1_main_arg6, v38_at1]
  rfl

/-! ## The second host stretch and region 1: the first-layer u features -/

theorem v40_at3 (c : Dev nD) : (W3 m ρ c (Proc.devRef .tc main_v40)) = asRow (m ((c : Thread nD τ).loc main_arg8)) := by
  show StableHlo.after hostOps1 (W2 m ρ c) (Proc.devRef .tc main_v40) = _
  after_results_simp
  rw [at2_main_arg8]
  exact shapeCast_eq_asRow _ _

theorem v41_at4 (c : Dev nD) : (W4 m ρ c (Proc.devRef .tc main_v41)) = kerU0 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  refine (W4_arr m ρ c 5).trans ((Region1.final1 (V3 m ρ) c).trans ?_)
  show combineLeaky Cert.Bridge.slope (W3 m ρ c (Proc.devRef .tc main_v37)) (W3 m ρ c (Proc.devRef .tc main_arg0)) (W3 m ρ c (Proc.devRef .tc main_arg7)) (W3 m ρ c (Proc.devRef .tc main_arg9)) (W3 m ρ c (Proc.devRef .tc main_v40)) = _
  rw [at3_main_v37, v37_at1, at3_main_arg0, at3_main_arg7, at3_main_arg9, v40_at3]
  rfl

theorem v39_at4 (c : Dev nD) : (W4 m ρ c (Proc.devRef .tc main_v39)) = kerM0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep4_main_v39 m ρ c).trans ((keep3_main_v39 m ρ c).trans (v39_at2 m ρ c))

/-! ## The third host stretch: the second layer's segment means and bias row -/

attribute [local irreducible] Host.scatterAdd Host.gather in
theorem v60_at5 (c : Dev nD) : (W5 m ρ c (Proc.devRef .tc main_v60)) = segM (W4 m ρ c (Proc.devRef .tc main_v41)) (W4 m ρ c (Proc.devRef .tc main_arg2)) (W4 m ρ c (Proc.devRef .tc main_arg3)) := by
  show StableHlo.after hostOps2 (W4 m ρ c) (Proc.devRef .tc main_v60) = _
  after_results_simp
  rfl

attribute [local irreducible] Host.scatterAdd Host.gather in
theorem v79_at5 (c : Dev nD) : (W5 m ρ c (Proc.devRef .tc main_v79)) = segU (W4 m ρ c (Proc.devRef .tc main_v39)) (W4 m ρ c (Proc.devRef .tc main_arg2)) (W4 m ρ c (Proc.devRef .tc main_arg3)) := by
  show StableHlo.after hostOps2 (W4 m ρ c) (Proc.devRef .tc main_v79) = _
  after_results_simp
  rfl

theorem v80_at5 (c : Dev nD) : (W5 m ρ c (Proc.devRef .tc main_v80)) = asRow (m ((c : Thread nD τ).loc main_arg11)) := by
  show StableHlo.after hostOps2 (W4 m ρ c) (Proc.devRef .tc main_v80) = _
  after_results_simp
  rw [at4_main_arg11]
  exact shapeCast_eq_asRow _ _

/-! ## Region 2: the second-layer m features, the second result -/

theorem v81_at6 (c : Dev nD) : (W6 m ρ c (Proc.devRef .tc main_v81)) = kerM1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((Region2.final2 (V5 m ρ) c).trans ?_)
  show combine (W5 m ρ c (Proc.devRef .tc main_v60)) (W5 m ρ c (Proc.devRef .tc main_v39)) (W5 m ρ c (Proc.devRef .tc main_arg10)) (W5 m ρ c (Proc.devRef .tc main_arg12)) (W5 m ρ c (Proc.devRef .tc main_v80)) = _
  rw [v60_at5, at5_main_v39, v39_at2, at5_main_arg10, at5_main_arg12, v80_at5, v41_at4, at4_main_arg2, at4_main_arg3]
  rfl

/-! ## The last host stretch and region 3: the second-layer u features, the first result -/

theorem v82_at7 (c : Dev nD) : (W7 m ρ c (Proc.devRef .tc main_v82)) = asRow (m ((c : Thread nD τ).loc main_arg14)) := by
  show StableHlo.after hostOps3 (W6 m ρ c) (Proc.devRef .tc main_v82) = _
  after_results_simp
  rw [at6_main_arg14]
  exact shapeCast_eq_asRow _ _

theorem v83_at8 (c : Dev nD) : (W8 m ρ c (Proc.devRef .tc main_v83)) = kerU1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  refine (W8_arr m ρ c 5).trans ((Region3.final3 (V7 m ρ) c).trans ?_)
  show combine (W7 m ρ c (Proc.devRef .tc main_v79)) (W7 m ρ c (Proc.devRef .tc main_v41)) (W7 m ρ c (Proc.devRef .tc main_arg13)) (W7 m ρ c (Proc.devRef .tc main_arg15)) (W7 m ρ c (Proc.devRef .tc main_v82)) = _
  rw [at7_main_v79, v79_at5, at7_main_v41, v41_at4, at7_main_arg13, at7_main_arg15, v82_at7, v39_at4, at4_main_arg2,
    at4_main_arg3]
  rfl

theorem v81_at8 (c : Dev nD) : (W8 m ρ c (Proc.devRef .tc main_v81)) = kerM1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (at8_main_v81 m ρ c).trans (v81_at6 m ρ c)

/-! ## The run, read -/

/-- Every weakly fair execution of the kernel program's @main terminates with its results at `kerU1` and `kerM1` of
    the arguments and the arguments unchanged. -/
theorem run : θ_run defs (onTc (τ := τ) (main (F := Ideal))) ⟨m, fun _ => 0, ρ⟩ (fun r => ∀ c : Dev nD,
      r.2.mem ((c.tc : Thread nD τ).loc main_v83) = kerU1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15))
      ∧ r.2.mem ((c.tc : Thread nD τ).loc main_v81) = kerM1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (v83_at8 m ρ c), (h c).2.1.trans (v81_at8 m ρ c), (h c).2.2⟩)
    (run_W8 m ρ)

end Cert.KernelIdeal.KernelValue

end
-- ==== Proof.RefRun.lean ====
/-
  The reference program's @main as the list of its host operations — the two outlined rectifier calls written
  out at their call sites over each call's own buffers — and its run: every weakly fair execution terminates with
  every buffer at the fold of the operations over the launch contents.
-/
import proofs.«127901_j62294205662068_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_c (constantI S_ 32 0#32),
    StableHlo.unary main_c main_v0 (broadcastInDim S1250000 ![] bcast_S_S1250000 : (⟨S_, .i32⟩ : BufTy).Contents (Elt F) → (⟨S1250000, .i32⟩ : BufTy).Contents (Elt F)),
    StableHlo.binary main_arg2 main_v0 main_v1 (cmpi .slt : (⟨S1250000, .i32⟩ : BufTy).Contents (Elt F) → (⟨S1250000, .i32⟩ : BufTy).Contents (Elt F) → (⟨S1250000, .i1⟩ : BufTy).Contents (Elt F)),
    StableHlo.nullary main_c_0 (constantI S_ 32 500000#32),
    StableHlo.unary main_c_0 main_v2 (broadcastInDim S1250000 ![] bcast_S_S1250000 : (⟨S_, .i32⟩ : BufTy).Contents (Elt F) → (⟨S1250000, .i32⟩ : BufTy).Contents (Elt F)),
    StableHlo.binary main_arg2 main_v2 main_v3 (addi : (⟨S1250000, .i32⟩ : BufTy).Contents (Elt F) → (⟨S1250000, .i32⟩ : BufTy).Contents (Elt F) → (⟨S1250000, .i32⟩ : BufTy).Contents (Elt F)),
    StableHlo.ternary main_v1 main_v3 main_arg2 main_v4 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v4 main_v5 (broadcastInDim S1250000x1 ![0] bcast_S1250000_S1250000x1_0 : (⟨S1250000, .i32⟩ : BufTy).Contents (Elt F) → (⟨S1250000x1, .i32⟩ : BufTy).Contents (Elt F)),
    StableHlo.binary main_arg0 main_v5 main_v6 ((fun x i => Host.gather gather_S500000x64_S1250000x1_S1250000x64_1_0_n_n_0_1_164 x i) : (⟨S500000x64, .f32⟩ : BufTy).Contents (Elt F) → (⟨S1250000x1, .i32⟩ : BufTy).Contents (Elt F) → (⟨S1250000x64, .f32⟩ : BufTy).Contents (Elt F)),
    StableHlo.nullary main_cst (constant S_ .f32 0x00000000#32),
    StableHlo.unary main_cst main_v7 (broadcastInDim S100000x64 ![] bcast_S_S100000x64 : (⟨S_, .f32⟩ : BufTy).Contents (Elt F) → (⟨S100000x64, .f32⟩ : BufTy).Contents (Elt F)),
    StableHlo.unary main_arg3 main_v8 (broadcastInDim S1250000x1 ![0] bcast_S1250000_S1250000x1_0 : (⟨S1250000, .i32⟩ : BufTy).Contents (Elt F) → (⟨S1250000x1, .i32⟩ : BufTy).Contents (Elt F)),
    StableHlo.ternary main_v7 main_v8 main_v6 main_v9 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.nullary main_cst_1 (constant S_ .f32 0x3F800000#32),
    StableHlo.unary main_cst_1 main_v10 (broadcastInDim S1250000 ![] bcast_S_S1250000 : (⟨S_, .f32⟩ : BufTy).Contents (Elt F) → (⟨S1250000, .f32⟩ : BufTy).Contents (Elt F)),
    StableHlo.nullary main_cst_2 (constant S_ .f32 0x00000000#32),
    StableHlo.unary main_cst_2 main_v11 (broadcastInDim S100000 ![] bcast_S_S100000 : (⟨S_, .f32⟩ : BufTy).Contents (Elt F) → (⟨S100000, .f32⟩ : BufTy).Contents (Elt F)),
    StableHlo.unary main_arg3 main_v12 (broadcastInDim S1250000x1 ![0] bcast_S1250000_S1250000x1_0 : (⟨S1250000, .i32⟩ : BufTy).Contents (Elt F) → (⟨S1250000x1, .i32⟩ : BufTy).Contents (Elt F)),
    StableHlo.ternary main_v11 main_v12 main_v10 main_v13 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_3 (constant S_ .f32 0x3F800000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v13 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x64 ![0, 1] bcast_S100000x1_S100000x64_0_1 : (⟨S100000x1, .f32⟩ : BufTy).Contents (Elt F) → (⟨S100000x64, .f32⟩ : BufTy).Contents (Elt F)),
    StableHlo.binary main_v9 main_v17 main_v18 (Host.divf : (⟨S100000x64, .f32⟩ : BufTy).Contents (Elt F) → (⟨S100000x64, .f32⟩ : BufTy).Contents (Elt F) → (⟨S100000x64, .f32⟩ : BufTy).Contents (Elt F)),
    StableHlo.binary main_v18 main_arg4 main_v19 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.binary main_arg1 main_arg6 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v22 main_v23 main_v24 (addf : (⟨S100000x64, .f32⟩ : BufTy).Contents (Elt F) → (⟨S100000x64, .f32⟩ : BufTy).Contents (Elt F) → (⟨S100000x64, .f32⟩ : BufTy).Contents (Elt F)),
    StableHlo.nullary main_c_4 (constantI S_ 32 0#32),
    StableHlo.unary main_c_4 main_v25 (broadcastInDim S1250000 ![] bcast_S_S1250000 : (⟨S_, .i32⟩ : BufTy).Contents (Elt F) → (⟨S1250000, .i32⟩ : BufTy).Contents (Elt F)),
    StableHlo.binary main_arg3 main_v25 main_v26 (cmpi .slt : (⟨S1250000, .i32⟩ : BufTy).Contents (Elt F) → (⟨S1250000, .i32⟩ : BufTy).Contents (Elt F) → (⟨S1250000, .i1⟩ : BufTy).Contents (Elt F)),
    StableHlo.nullary main_c_5 (constantI S_ 32 100000#32),
    StableHlo.unary main_c_5 main_v27 (broadcastInDim S1250000 ![] bcast_S_S1250000 : (⟨S_, .i32⟩ : BufTy).Contents (Elt F) → (⟨S1250000, .i32⟩ : BufTy).Contents (Elt F)),
    StableHlo.binary main_arg3 main_v27 main_v28 (addi : (⟨S1250000, .i32⟩ : BufTy).Contents (Elt F) → (⟨S1250000, .i32⟩ : BufTy).Contents (Elt F) → (⟨S1250000, .i32⟩ : BufTy).Contents (Elt F)),
    StableHlo.ternary main_v26 main_v28 main_arg3 main_v29 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v29 main_v30 (broadcastInDim S1250000x1 ![0] bcast_S1250000_S1250000x1_0 : (⟨S1250000, .i32⟩ : BufTy).Contents (Elt F) → (⟨S1250000x1, .i32⟩ : BufTy).Contents (Elt F)),
    StableHlo.binary main_arg1 main_v30 main_v31 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_6 (constant S_ .f32 0x00000000#32),
    StableHlo.unary main_cst_6 main_v32 (broadcastInDim S500000x64 ![] bcast_S_S500000x64 : (⟨S_, .f32⟩ : BufTy).Contents (Elt F) → (⟨S500000x64, .f32⟩ : BufTy).Contents (Elt F)),
    StableHlo.unary main_arg2 main_v33 (broadcastInDim S1250000x1 ![0] bcast_S1250000_S1250000x1_0 : (⟨S1250000, .i32⟩ : BufTy).Contents (Elt F) → (⟨S1250000x1, .i32⟩ : BufTy).Contents (Elt F)),
    StableHlo.ternary main_v32 main_v33 main_v31 main_v34 ((fun x i u => Host.scatterAdd scatter_S500000x64_S1250000x1_S1250000x64_1_0_0_1 x i u) : (⟨S500000x64, .f32⟩ : BufTy).Contents (Elt F) → (⟨S1250000x1, .i32⟩ : BufTy).Contents (Elt F) → (⟨S1250000x64, .f32⟩ : BufTy).Contents (Elt F) → (⟨S500000x64, .f32⟩ : BufTy).Contents (Elt F)),
    StableHlo.nullary main_cst_7 (constant S_ .f32 0x3F800000#32),
    StableHlo.unary main_cst_7 main_v35 (broadcastInDim S1250000 ![] bcast_S_S1250000 : (⟨S_, .f32⟩ : BufTy).Contents (Elt F) → (⟨S1250000, .f32⟩ : BufTy).Contents (Elt F)),
    StableHlo.nullary main_cst_8 (constant S_ .f32 0x00000000#32),
    StableHlo.unary main_cst_8 main_v36 (broadcastInDim S500000 ![] bcast_S_S500000 : (⟨S_, .f32⟩ : BufTy).Contents (Elt F) → (⟨S500000, .f32⟩ : BufTy).Contents (Elt F)),
    StableHlo.unary main_arg2 main_v37 (broadcastInDim S1250000x1 ![0] bcast_S1250000_S1250000x1_0 : (⟨S1250000, .i32⟩ : BufTy).Contents (Elt F) → (⟨S1250000x1, .i32⟩ : BufTy).Contents (Elt F)),
    StableHlo.ternary main_v36 main_v37 main_v35 main_v38 ((fun x i u => Host.scatterAdd scatter_S500000_S1250000x1_S1250000_n_0_0_1 x i u) : (⟨S500000, .f32⟩ : BufTy).Contents (Elt F) → (⟨S1250000x1, .i32⟩ : BufTy).Contents (Elt F) → (⟨S1250000, .f32⟩ : BufTy).Contents (Elt F) → (⟨S500000, .f32⟩ : BufTy).Contents (Elt F)),
    StableHlo.nullary main_cst_9 (constant S_ .f32 0x3F800000#32),
    StableHlo.unary main_cst_9 main_v39 (broadcastInDim S500000 ![] bcast_S_S500000 : (⟨S_, .f32⟩ : BufTy).Contents (Elt F) → (⟨S500000, .f32⟩ : BufTy).Contents (Elt F)),
    StableHlo.binary main_v38 main_v39 main_v40 (maximumf : (⟨S500000, .f32⟩ : BufTy).Contents (Elt F) → (⟨S500000, .f32⟩ : BufTy).Contents (Elt F) → (⟨S500000, .f32⟩ : BufTy).Contents (Elt F)),
    StableHlo.unary main_v40 main_v41 (broadcastInDim S500000x1 ![0] bcast_S500000_S500000x1_0 : (⟨S500000, .f32⟩ : BufTy).Contents (Elt F) → (⟨S500000x1, .f32⟩ : BufTy).Contents (Elt F)),
    StableHlo.unary main_v41 main_v42 (broadcastInDim S500000x64 ![0, 1] bcast_S500000x1_S500000x64_0_1 : (⟨S500000x1, .f32⟩ : BufTy).Contents (Elt F) → (⟨S500000x64, .f32⟩ : BufTy).Contents (Elt F)),
    StableHlo.binary main_v34 main_v42 main_v43 (Host.divf : (⟨S500000x64, .f32⟩ : BufTy).Contents (Elt F) → (⟨S500000x64, .f32⟩ : BufTy).Contents (Elt F) → (⟨S500000x64, .f32⟩ : BufTy).Contents (Elt F)),
    StableHlo.binary main_v43 main_arg7 main_v44 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg8 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S500000x64 ![0, 1] bcast_S1x64_S500000x64_0_1 : (⟨S1x64, .f32⟩ : BufTy).Contents (Elt F) → (⟨S500000x64, .f32⟩ : BufTy).Contents (Elt F)),
    StableHlo.binary main_v44 main_v46 main_v47 (addf : (⟨S500000x64, .f32⟩ : BufTy).Contents (Elt F) → (⟨S500000x64, .f32⟩ : BufTy).Contents (Elt F) → (⟨S500000x64, .f32⟩ : BufTy).Contents (Elt F)),
    StableHlo.binary main_arg0 main_arg9 main_v48 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.binary main_v47 main_v48 main_v49 (addf : (⟨S500000x64, .f32⟩ : BufTy).Contents (Elt F) → (⟨S500000x64, .f32⟩ : BufTy).Contents (Elt F) → (⟨S500000x64, .f32⟩ : BufTy).Contents (Elt F)),
    StableHlo.nullary main_cst_10 (constant S_ .f32 0x3C23D70A#32),
    StableHlo.TRef.nullary main_call0.cst (constant S_ .f32 0x00000000#32),
    StableHlo.TRef.unary main_call0.cst main_call0.v0 (broadcastInDim S500000x64 ![] bcast_S_S500000x64),
    StableHlo.TRef.binary (.of main_v49) main_call0.v0 main_call0.v1 (cmpf .oge),
    StableHlo.TRef.unary (.of main_cst_10) main_call0.v2 id,
    StableHlo.TRef.unary main_call0.v2 main_call0.v3 (broadcastInDim S500000x64 ![] bcast_S_S500000x64),
    StableHlo.TRef.binary main_call0.v3 (.of main_v49) main_call0.v4 mulf,
    StableHlo.TRef.ternary main_call0.v1 (.of main_v49) main_call0.v4 main_call0.call0.v0 select,
    StableHlo.nullary main_cst_11 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v24) main_call1.v0 main_call1.v1 (cmpf .oge),
    StableHlo.TRef.unary (.of main_cst_11) main_call1.v2 id,
    StableHlo.TRef.unary main_call1.v2 main_call1.v3 (broadcastInDim S100000x64 ![] bcast_S_S100000x64),
    StableHlo.TRef.binary main_call1.v3 (.of main_v24) main_call1.v4 mulf,
    StableHlo.TRef.ternary main_call1.v1 (.of main_v24) main_call1.v4 main_call1.call0.v0 select,
    StableHlo.nullary main_c_12 (constantI S_ 32 0#32),
    StableHlo.unary main_c_12 main_v52 (broadcastInDim S1250000 ![] bcast_S_S1250000 : (⟨S_, .i32⟩ : BufTy).Contents (Elt F) → (⟨S1250000, .i32⟩ : BufTy).Contents (Elt F)),
    StableHlo.binary main_arg2 main_v52 main_v53 (cmpi .slt : (⟨S1250000, .i32⟩ : BufTy).Contents (Elt F) → (⟨S1250000, .i32⟩ : BufTy).Contents (Elt F) → (⟨S1250000, .i1⟩ : BufTy).Contents (Elt F)),
    StableHlo.nullary main_c_13 (constantI S_ 32 500000#32),
    StableHlo.unary main_c_13 main_v54 (broadcastInDim S1250000 ![] bcast_S_S1250000 : (⟨S_, .i32⟩ : BufTy).Contents (Elt F) → (⟨S1250000, .i32⟩ : BufTy).Contents (Elt F)),
    StableHlo.binary main_arg2 main_v54 main_v55 (addi : (⟨S1250000, .i32⟩ : BufTy).Contents (Elt F) → (⟨S1250000, .i32⟩ : BufTy).Contents (Elt F) → (⟨S1250000, .i32⟩ : BufTy).Contents (Elt F)),
    StableHlo.ternary main_v53 main_v55 main_arg2 main_v56 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v56 main_v57 (broadcastInDim S1250000x1 ![0] bcast_S1250000_S1250000x1_0 : (⟨S1250000, .i32⟩ : BufTy).Contents (Elt F) → (⟨S1250000x1, .i32⟩ : BufTy).Contents (Elt F)),
    StableHlo.binary main_v50 main_v57 main_v58 ((fun x i => Host.gather gather_S500000x64_S1250000x1_S1250000x64_1_0_n_n_0_1_164 x i) : (⟨S500000x64, .f32⟩ : BufTy).Contents (Elt F) → (⟨S1250000x1, .i32⟩ : BufTy).Contents (Elt F) → (⟨S1250000x64, .f32⟩ : BufTy).Contents (Elt F)),
    StableHlo.nullary main_cst_14 (constant S_ .f32 0x00000000#32),
    StableHlo.unary main_cst_14 main_v59 (broadcastInDim S100000x64 ![] bcast_S_S100000x64 : (⟨S_, .f32⟩ : BufTy).Contents (Elt F) → (⟨S100000x64, .f32⟩ : BufTy).Contents (Elt F)),
    StableHlo.unary main_arg3 main_v60 (broadcastInDim S1250000x1 ![0] bcast_S1250000_S1250000x1_0 : (⟨S1250000, .i32⟩ : BufTy).Contents (Elt F) → (⟨S1250000x1, .i32⟩ : BufTy).Contents (Elt F)),
    StableHlo.ternary main_v59 main_v60 main_v58 main_v61 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.nullary main_cst_15 (constant S_ .f32 0x3F800000#32),
    StableHlo.unary main_cst_15 main_v62 (broadcastInDim S1250000 ![] bcast_S_S1250000 : (⟨S_, .f32⟩ : BufTy).Contents (Elt F) → (⟨S1250000, .f32⟩ : BufTy).Contents (Elt F)),
    StableHlo.nullary main_cst_16 (constant S_ .f32 0x00000000#32),
    StableHlo.unary main_cst_16 main_v63 (broadcastInDim S100000 ![] bcast_S_S100000 : (⟨S_, .f32⟩ : BufTy).Contents (Elt F) → (⟨S100000, .f32⟩ : BufTy).Contents (Elt F)),
    StableHlo.unary main_arg3 main_v64 (broadcastInDim S1250000x1 ![0] bcast_S1250000_S1250000x1_0 : (⟨S1250000, .i32⟩ : BufTy).Contents (Elt F) → (⟨S1250000x1, .i32⟩ : BufTy).Contents (Elt F)),
    StableHlo.ternary main_v63 main_v64 main_v62 main_v65 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_17 (constant S_ .f32 0x3F800000#32),
    StableHlo.unary main_cst_17 main_v66 (broadcastInDim S100000 ![] bcast_S_S100000 : (⟨S_, .f32⟩ : BufTy).Contents (Elt F) → (⟨S100000, .f32⟩ : BufTy).Contents (Elt F)),
    StableHlo.binary main_v65 main_v66 main_v67 (maximumf : (⟨S100000, .f32⟩ : BufTy).Contents (Elt F) → (⟨S100000, .f32⟩ : BufTy).Contents (Elt F) → (⟨S100000, .f32⟩ : BufTy).Contents (Elt F)),
    StableHlo.unary main_v67 main_v68 (broadcastInDim S100000x1 ![0] bcast_S100000_S100000x1_0 : (⟨S100000, .f32⟩ : BufTy).Contents (Elt F) → (⟨S100000x1, .f32⟩ : BufTy).Contents (Elt F)),
    StableHlo.unary main_v68 main_v69 (broadcastInDim S100000x64 ![0, 1] bcast_S100000x1_S100000x64_0_1 : (⟨S100000x1, .f32⟩ : BufTy).Contents (Elt F) → (⟨S100000x64, .f32⟩ : BufTy).Contents (Elt F)),
    StableHlo.binary main_v61 main_v69 main_v70 (Host.divf : (⟨S100000x64, .f32⟩ : BufTy).Contents (Elt F) → (⟨S100000x64, .f32⟩ : BufTy).Contents (Elt F) → (⟨S100000x64, .f32⟩ : BufTy).Contents (Elt F)),
    StableHlo.binary main_v70 main_arg10 main_v71 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v73 main_v74 (addf : (⟨S100000x64, .f32⟩ : BufTy).Contents (Elt F) → (⟨S100000x64, .f32⟩ : BufTy).Contents (Elt F) → (⟨S100000x64, .f32⟩ : BufTy).Contents (Elt F)),
    StableHlo.binary main_v51 main_arg12 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v74 main_v75 main_v76 (addf : (⟨S100000x64, .f32⟩ : BufTy).Contents (Elt F) → (⟨S100000x64, .f32⟩ : BufTy).Contents (Elt F) → (⟨S100000x64, .f32⟩ : BufTy).Contents (Elt F)),
    StableHlo.nullary main_c_18 (constantI S_ 32 0#32),
    StableHlo.unary main_c_18 main_v77 (broadcastInDim S1250000 ![] bcast_S_S1250000 : (⟨S_, .i32⟩ : BufTy).Contents (Elt F) → (⟨S1250000, .i32⟩ : BufTy).Contents (Elt F)),
    StableHlo.binary main_arg3 main_v77 main_v78 (cmpi .slt : (⟨S1250000, .i32⟩ : BufTy).Contents (Elt F) → (⟨S1250000, .i32⟩ : BufTy).Contents (Elt F) → (⟨S1250000, .i1⟩ : BufTy).Contents (Elt F)),
    StableHlo.nullary main_c_19 (constantI S_ 32 100000#32),
    StableHlo.unary main_c_19 main_v79 (broadcastInDim S1250000 ![] bcast_S_S1250000 : (⟨S_, .i32⟩ : BufTy).Contents (Elt F) → (⟨S1250000, .i32⟩ : BufTy).Contents (Elt F)),
    StableHlo.binary main_arg3 main_v79 main_v80 (addi : (⟨S1250000, .i32⟩ : BufTy).Contents (Elt F) → (⟨S1250000, .i32⟩ : BufTy).Contents (Elt F) → (⟨S1250000, .i32⟩ : BufTy).Contents (Elt F)),
    StableHlo.ternary main_v78 main_v80 main_arg3 main_v81 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v81 main_v82 (broadcastInDim S1250000x1 ![0] bcast_S1250000_S1250000x1_0 : (⟨S1250000, .i32⟩ : BufTy).Contents (Elt F) → (⟨S1250000x1, .i32⟩ : BufTy).Contents (Elt F)),
    StableHlo.binary main_v51 main_v82 main_v83 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_20 (constant S_ .f32 0x00000000#32),
    StableHlo.unary main_cst_20 main_v84 (broadcastInDim S500000x64 ![] bcast_S_S500000x64 : (⟨S_, .f32⟩ : BufTy).Contents (Elt F) → (⟨S500000x64, .f32⟩ : BufTy).Contents (Elt F)),
    StableHlo.unary main_arg2 main_v85 (broadcastInDim S1250000x1 ![0] bcast_S1250000_S1250000x1_0 : (⟨S1250000, .i32⟩ : BufTy).Contents (Elt F) → (⟨S1250000x1, .i32⟩ : BufTy).Contents (Elt F)),
    StableHlo.ternary main_v84 main_v85 main_v83 main_v86 ((fun x i u => Host.scatterAdd scatter_S500000x64_S1250000x1_S1250000x64_1_0_0_1 x i u) : (⟨S500000x64, .f32⟩ : BufTy).Contents (Elt F) → (⟨S1250000x1, .i32⟩ : BufTy).Contents (Elt F) → (⟨S1250000x64, .f32⟩ : BufTy).Contents (Elt F) → (⟨S500000x64, .f32⟩ : BufTy).Contents (Elt F)),
    StableHlo.nullary main_cst_21 (constant S_ .f32 0x3F800000#32),
    StableHlo.unary main_cst_21 main_v87 (broadcastInDim S1250000 ![] bcast_S_S1250000 : (⟨S_, .f32⟩ : BufTy).Contents (Elt F) → (⟨S1250000, .f32⟩ : BufTy).Contents (Elt F)),
    StableHlo.nullary main_cst_22 (constant S_ .f32 0x00000000#32),
    StableHlo.unary main_cst_22 main_v88 (broadcastInDim S500000 ![] bcast_S_S500000 : (⟨S_, .f32⟩ : BufTy).Contents (Elt F) → (⟨S500000, .f32⟩ : BufTy).Contents (Elt F)),
    StableHlo.unary main_arg2 main_v89 (broadcastInDim S1250000x1 ![0] bcast_S1250000_S1250000x1_0 : (⟨S1250000, .i32⟩ : BufTy).Contents (Elt F) → (⟨S1250000x1, .i32⟩ : BufTy).Contents (Elt F)),
    StableHlo.ternary main_v88 main_v89 main_v87 main_v90 ((fun x i u => Host.scatterAdd scatter_S500000_S1250000x1_S1250000_n_0_0_1 x i u) : (⟨S500000, .f32⟩ : BufTy).Contents (Elt F) → (⟨S1250000x1, .i32⟩ : BufTy).Contents (Elt F) → (⟨S1250000, .f32⟩ : BufTy).Contents (Elt F) → (⟨S500000, .f32⟩ : BufTy).Contents (Elt F)),
    StableHlo.nullary main_cst_23 (constant S_ .f32 0x3F800000#32),
    StableHlo.unary main_cst_23 main_v91 (broadcastInDim S500000 ![] bcast_S_S500000 : (⟨S_, .f32⟩ : BufTy).Contents (Elt F) → (⟨S500000, .f32⟩ : BufTy).Contents (Elt F)),
    StableHlo.binary main_v90 main_v91 main_v92 (maximumf : (⟨S500000, .f32⟩ : BufTy).Contents (Elt F) → (⟨S500000, .f32⟩ : BufTy).Contents (Elt F) → (⟨S500000, .f32⟩ : BufTy).Contents (Elt F)),
    StableHlo.unary main_v92 main_v93 (broadcastInDim S500000x1 ![0] bcast_S500000_S500000x1_0 : (⟨S500000, .f32⟩ : BufTy).Contents (Elt F) → (⟨S500000x1, .f32⟩ : BufTy).Contents (Elt F)),
    StableHlo.unary main_v93 main_v94 (broadcastInDim S500000x64 ![0, 1] bcast_S500000x1_S500000x64_0_1 : (⟨S500000x1, .f32⟩ : BufTy).Contents (Elt F) → (⟨S500000x64, .f32⟩ : BufTy).Contents (Elt F)),
    StableHlo.binary main_v86 main_v94 main_v95 (Host.divf : (⟨S500000x64, .f32⟩ : BufTy).Contents (Elt F) → (⟨S500000x64, .f32⟩ : BufTy).Contents (Elt F) → (⟨S500000x64, .f32⟩ : BufTy).Contents (Elt F)),
    StableHlo.binary main_v95 main_arg13 main_v96 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.unary main_arg14 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S500000x64 ![0, 1] bcast_S1x64_S500000x64_0_1 : (⟨S1x64, .f32⟩ : BufTy).Contents (Elt F) → (⟨S500000x64, .f32⟩ : BufTy).Contents (Elt F)),
    StableHlo.binary main_v96 main_v98 main_v99 (addf : (⟨S500000x64, .f32⟩ : BufTy).Contents (Elt F) → (⟨S500000x64, .f32⟩ : BufTy).Contents (Elt F) → (⟨S500000x64, .f32⟩ : BufTy).Contents (Elt F)),
    StableHlo.binary main_v50 main_arg15 main_v100 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    StableHlo.binary main_v99 main_v100 main_v101 (addf : (⟨S500000x64, .f32⟩ : BufTy).Contents (Elt F) → (⟨S500000x64, .f32⟩ : BufTy).Contents (Elt F) → (⟨S500000x64, .f32⟩ : BufTy).Contents (Elt F)) ]

set_option maxRecDepth 65536 in
set_option maxHeartbeats 4000000 in
/-- @main is that straight line: its three windows in order, the outlined functions unfolded at their calls. -/
theorem main_eq (c : Dev nD) : main (F := F) c = seq ops := by
  simp only [main, main_part0, main_part1, main_part2, fn_leaky_relu.body, fn_leaky_relu_0.body, fn_where.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- Every weakly fair execution of @main terminates with every buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's run read at its two results and at its arguments: the fold of its operations over any contents, at
  the first result, is `refU1` of the arguments' contents, at the second `refM1`, and at an argument the argument's
  own contents (no operation writes one).
-/
import proofs.«127901_j62294205662068_1_alg».proof.Proof.RefRun
import proofs.«127901_j62294205662068_1_alg».proof.Proof.Stages

noncomputable section

namespace Cert.ReferenceIdeal.RefValue

open Cert.ReferenceIdeal Cert.ReferenceIdeal.Gen Cert.ReferenceIdeal.RefRun Cert.Stages
open Idealize.ShloMosaic Idealize.ShloMosaic.TcCoe Idealize.SL.Sem Idealize.ShloMosaic.StableHlo

variable {F : FTy → Type} [FloatOps F]

attribute [local irreducible] Host.scatterAdd Host.gather in
set_option maxRecDepth 65536 in
set_option maxHeartbeats 4000000 in
/-- The first result: the second-layer u features. -/
theorem out0_eq (V : Valuation τ sig (Elt F)) :
    after ops V (main_v101 : DevRef τ sig) = refU1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg13 : DevRef τ sig)) (V (main_arg14 : DevRef τ sig)) (V (main_arg15 : DevRef τ sig)) := by
  after_results_simp
  rfl

attribute [local irreducible] Host.scatterAdd Host.gather in
set_option maxRecDepth 65536 in
set_option maxHeartbeats 4000000 in
/-- The second result: the second-layer m features. -/
theorem out1_eq (V : Valuation τ sig (Elt F)) :
    after ops V (main_v76 : DevRef τ sig) = refM1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 65536 in
set_option maxHeartbeats 4000000 in
theorem arg0_eq (V : Valuation τ sig (Elt F)) : after ops V (main_arg0 : DevRef τ sig) = V (main_arg0 : DevRef τ sig) := by
  after_results_simp

set_option maxRecDepth 65536 in
set_option maxHeartbeats 4000000 in
theorem arg1_eq (V : Valuation τ sig (Elt F)) : after ops V (main_arg1 : DevRef τ sig) = V (main_arg1 : DevRef τ sig) := by
  after_results_simp

set_option maxRecDepth 65536 in
set_option maxHeartbeats 4000000 in
theorem arg2_eq (V : Valuation τ sig (Elt F)) : after ops V (main_arg2 : DevRef τ sig) = V (main_arg2 : DevRef τ sig) := by
  after_results_simp

set_option maxRecDepth 65536 in
set_option maxHeartbeats 4000000 in
theorem arg3_eq (V : Valuation τ sig (Elt F)) : after ops V (main_arg3 : DevRef τ sig) = V (main_arg3 : DevRef τ sig) := by
  after_results_simp

set_option maxRecDepth 65536 in
set_option maxHeartbeats 4000000 in
theorem arg4_eq (V : Valuation τ sig (Elt F)) : after ops V (main_arg4 : DevRef τ sig) = V (main_arg4 : DevRef τ sig) := by
  after_results_simp

set_option maxRecDepth 65536 in
set_option maxHeartbeats 4000000 in
theorem arg5_eq (V : Valuation τ sig (Elt F)) : after ops V (main_arg5 : DevRef τ sig) = V (main_arg5 : DevRef τ sig) := by
  after_results_simp

set_option maxRecDepth 65536 in
set_option maxHeartbeats 4000000 in
theorem arg6_eq (V : Valuation τ sig (Elt F)) : after ops V (main_arg6 : DevRef τ sig) = V (main_arg6 : DevRef τ sig) := by
  after_results_simp

set_option maxRecDepth 65536 in
set_option maxHeartbeats 4000000 in
theorem arg7_eq (V : Valuation τ sig (Elt F)) : after ops V (main_arg7 : DevRef τ sig) = V (main_arg7 : DevRef τ sig) := by
  after_results_simp

set_option maxRecDepth 65536 in
set_option maxHeartbeats 4000000 in
theorem arg8_eq (V : Valuation τ sig (Elt F)) : after ops V (main_arg8 : DevRef τ sig) = V (main_arg8 : DevRef τ sig) := by
  after_results_simp

set_option maxRecDepth 65536 in
set_option maxHeartbeats 4000000 in
theorem arg9_eq (V : Valuation τ sig (Elt F)) : after ops V (main_arg9 : DevRef τ sig) = V (main_arg9 : DevRef τ sig) := by
  after_results_simp

set_option maxRecDepth 65536 in
set_option maxHeartbeats 4000000 in
theorem arg10_eq (V : Valuation τ sig (Elt F)) : after ops V (main_arg10 : DevRef τ sig) = V (main_arg10 : DevRef τ sig) := by
  after_results_simp

set_option maxRecDepth 65536 in
set_option maxHeartbeats 4000000 in
theorem arg11_eq (V : Valuation τ sig (Elt F)) : after ops V (main_arg11 : DevRef τ sig) = V (main_arg11 : DevRef τ sig) := by
  after_results_simp

set_option maxRecDepth 65536 in
set_option maxHeartbeats 4000000 in
theorem arg12_eq (V : Valuation τ sig (Elt F)) : after ops V (main_arg12 : DevRef τ sig) = V (main_arg12 : DevRef τ sig) := by
  after_results_simp

set_option maxRecDepth 65536 in
set_option maxHeartbeats 4000000 in
theorem arg13_eq (V : Valuation τ sig (Elt F)) : after ops V (main_arg13 : DevRef τ sig) = V (main_arg13 : DevRef τ sig) := by
  after_results_simp

set_option maxRecDepth 65536 in
set_option maxHeartbeats 4000000 in
theorem arg14_eq (V : Valuation τ sig (Elt F)) : after ops V (main_arg14 : DevRef τ sig) = V (main_arg14 : DevRef τ sig) := by
  after_results_simp

set_option maxRecDepth 65536 in
set_option maxHeartbeats 4000000 in
theorem arg15_eq (V : Valuation τ sig (Elt F)) : after ops V (main_arg15 : DevRef τ sig) = V (main_arg15 : DevRef τ sig) := by
  after_results_simp

/-- Every weakly fair execution of the reference's @main terminates with its results at `refU1` and `refM1` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = refU1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15))
      ∧ r.2.mem ((c.tc : Thread nD τ).loc main_v76) = refM1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v101).trans (out0_eq _), (h c main_v76).trans (out1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_all m ρ)

end Cert.ReferenceIdeal.RefValue

end
-- ==== Proof.lean ====
/-
  A two-layer mean-aggregation graph network on a bipartite graph (500000 and 100000 nodes, 1250000 edges), computed
  by a program whose four dense steps are kernel regions and by a plain host reference; the two are equal on the
  extended reals.

  Both programs aggregate neighbours with the same host operations (a gather of rows along the edges, a sum into the
  receiving node's row, a division by the edge count joined with one).  Between them the kernel program runs, for each
  node type and each layer, a region over blocks of 5000 rows that stores (A·Wl + X·Wr) + b — followed, in the first
  layer, by v ↦ v if 0 < v else v·c — where the reference computes (A·Wl + b) + X·Wr and v ↦ v if 0 ≤ v else c·v.
  At the extended reals a change of float format is the identity, a product into a zero accumulator and the host's
  dot_general are the same sum over the contracted coordinate, the two groupings of the three-term sum agree because
  addition is commutative and associative (no finiteness is used), and the two rectifiers differ only at v = 0 where
  both give 0.  An entry of a dense step depends on one row of A and of X, so the rows a grid point writes back are
  those rows of the dense step of the whole arrays, and the blocks cover the output.

  The frames of the two kernel programs are the generated ones; the reference's frame is its run with the results
  dropped.  No rewrite was applied when the kernel was idealized, so the preservation claim is trivially true.
-/
import proofs.«127901_j62294205662068_1_alg».proof.Defs
import proofs.«127901_j62294205662068_1_alg».proof.Proof.Gen.Kernel
import proofs.«127901_j62294205662068_1_alg».proof.Proof.Gen.Kernel.Skeleton
import proofs.«127901_j62294205662068_1_alg».proof.Proof.Gen.Kernel.Launch
import proofs.«127901_j62294205662068_1_alg».proof.Proof.Gen.Kernel.Points
import proofs.«127901_j62294205662068_1_alg».proof.Proof.Gen.Kernel.Frame
import proofs.«127901_j62294205662068_1_alg».proof.Proof.Gen.KernelIdeal
import proofs.«127901_j62294205662068_1_alg».proof.Proof.Gen.KernelIdeal.Skeleton
import proofs.«127901_j62294205662068_1_alg».proof.Proof.Gen.KernelIdeal.Launch
import proofs.«127901_j62294205662068_1_alg».proof.Proof.Gen.KernelIdeal.Points
import proofs.«127901_j62294205662068_1_alg».proof.Proof.Gen.KernelIdeal.Frame
import proofs.«127901_j62294205662068_1_alg».proof.Proof.Gen.ReferenceIdeal
import proofs.«127901_j62294205662068_1_alg».proof.Proof.Gen.Pre_finite_inputs
import Idealize.ShloMosaic.Adequacy
import Idealize.ShloMosaic.Init
import proofs.«127901_j62294205662068_1_alg».proof.Proof.KernelValue
import proofs.«127901_j62294205662068_1_alg».proof.Proof.RefValue
import proofs.«127901_j62294205662068_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.RefValue.run (F := Ideal) m ρ)

/-- The idealization rewrote no operation. -/
theorem preserves : Cert.preserves_Kernel_KernelIdeal := trivial

/-- Both programs end with the second-layer u features and m features of the same arguments: the kernel program's
    regions give `kerU1` and `kerM1`, the reference's operations `refU1` and `refM1`, and those are equal stage by
    stage. -/
theorem algebraic : Cert.algebraic_KernelIdeal_ReferenceIdeal := by
  intro m ρ m' ρ' _ hagree
  refine ⟨fun c => Cert.Bridge.kerU1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.Bridge.kerM1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KernelValue.run m ρ, ?_⟩
  refine (θ_run Cert.ReferenceIdeal.defs _ _).mono (fun _ h c => ?_) (Cert.ReferenceIdeal.RefValue.run (F := Ideal) m' ρ')
  obtain ⟨h0, h1, hargs⟩ := h c
  obtain ⟨e0, e1, e2, e3, e4, e5, e6, e7, e8, e9, e10, e11, e12, e13, e14, e15⟩ := hagree c
  refine ⟨?_, ?_, hargs⟩
  · rw [h0, Cert.Bridge.refU1_eq, e0, e1, e2, e3, e4, e5, e6, e7, e8, e9, e13, e14, e15]
  · rw [h1, Cert.Bridge.refM1_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
